-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x47x156 : Shape := ⟨4, ![2, 32, 47, 156]⟩
abbrev S2x121x47x156 : Shape := ⟨4, ![2, 121, 47, 156]⟩
abbrev S2x376x1248 : Shape := ⟨3, ![2, 376, 1248]⟩
abbrev S2x47x156 : Shape := ⟨3, ![2, 47, 156]⟩
abbrev S_ : Shape := ⟨0, ![]⟩

class Facts : Prop where
  bcast_S_S2x32x47x156 : S_.BroadcastsInDim S2x32x47x156 (![] : Fin 0 → Fin S2x32x47x156.rank)
  reducesTo_S2x32x47x156_S_d0_1_2_3 : S2x32x47x156.ReducesTo [0, 1, 2, 3] S_
  h_S_ : 0 < S_.numel
  bcast_S_S2x121x47x156 : S_.BroadcastsInDim S2x121x47x156 (![] : Fin 0 → Fin S2x121x47x156.rank)
  reducesTo_S2x121x47x156_S_d0_1_2_3 : S2x121x47x156.ReducesTo [0, 1, 2, 3] S_
  bcast_S_S2x376x1248 : S_.BroadcastsInDim S2x376x1248 (![] : Fin 0 → Fin S2x376x1248.rank)
  reducesTo_S2x376x1248_S_d0_1_2 : S2x376x1248.ReducesTo [0, 1, 2] S_

variable [Facts]

def fn {F : FTy → Type} [FloatOps F] (main_arg0 : FVec F S2x32x47x156 .f32) (main_arg1 : FVec F S2x121x47x156 .f32) (main_arg2 : FVec F S2x376x1248 .f32) (main_arg3 : IVec S2x47x156 32) : IVec S_ 1 :=
  let main_v0 : FVec F S2x32x47x156 .f32 := Host.absf main_arg0
  let main_cst : FVec F S_ .f32 := constant S_ .f32 0x7F800000#32
  let main_v1 : FVec F S2x32x47x156 .f32 := broadcastInDim S2x32x47x156 ![] bcast_S_S2x32x47x156 main_cst
  let main_v2 : IVec S2x32x47x156 1 := cmpf .olt main_v0 main_v1
  let main_c : IVec S_ 1 := constantI S_ 1 1#1
  let main_v3 : IVec S_ 1 := (fun x v => Host.reduce IntOp.andi x v reducesTo_S2x32x47x156_S_d0_1_2_3 h_S_) main_v2 main_c
  let main_v4 : FVec F S2x121x47x156 .f32 := Host.absf main_arg1
  let main_cst_0 : FVec F S_ .f32 := constant S_ .f32 0x7F800000#32
  let main_v5 : FVec F S2x121x47x156 .f32 := broadcastInDim S2x121x47x156 ![] bcast_S_S2x121x47x156 main_cst_0
  let main_v6 : IVec S2x121x47x156 1 := cmpf .olt main_v4 main_v5
  let main_c_1 : IVec S_ 1 := constantI S_ 1 1#1
  let main_v7 : IVec S_ 1 := (fun x v => Host.reduce IntOp.andi x v reducesTo_S2x121x47x156_S_d0_1_2_3 h_S_) main_v6 main_c_1
  let main_v8 : IVec S_ 1 := andi main_v3 main_v7
  let main_v9 : FVec F S2x376x1248 .f32 := Host.absf main_arg2
  let main_cst_2 : FVec F S_ .f32 := constant S_ .f32 0x7F800000#32
  let main_v10 : FVec F S2x376x1248 .f32 := broadcastInDim S2x376x1248 ![] bcast_S_S2x376x1248 main_cst_2
  let main_v11 : IVec S2x376x1248 1 := cmpf .olt main_v9 main_v10
  let main_c_3 : IVec S_ 1 := constantI S_ 1 1#1
  let main_v12 : IVec S_ 1 := (fun x v => Host.reduce IntOp.andi x v reducesTo_S2x376x1248_S_d0_1_2 h_S_) main_v11 main_c_3
  let main_v13 : IVec S_ 1 := andi main_v8 main_v12
  main_v13
-- ==== Kernel.lean ====
abbrev S2x32x47x156 : Shape := ⟨4, ![2, 32, 47, 156]⟩
abbrev S2x121x47x156 : Shape := ⟨4, ![2, 121, 47, 156]⟩
abbrev S2x376x1248 : Shape := ⟨3, ![2, 376, 1248]⟩
abbrev S2x47x156 : Shape := ⟨3, ![2, 47, 156]⟩
abbrev S2x47x8x156x8 : Shape := ⟨5, ![2, 47, 8, 156, 8]⟩
abbrev S_ : Shape := ⟨0, ![]⟩
abbrev S2x120x47x156 : Shape := ⟨4, ![2, 120, 47, 156]⟩
abbrev S1x121x47x156 : Shape := ⟨4, ![1, 121, 47, 156]⟩
abbrev S1x47x156 : Shape := ⟨3, ![1, 47, 156]⟩
abbrev S1x120x47x156 : Shape := ⟨4, ![1, 120, 47, 156]⟩
abbrev S1x1x47x156 : Shape := ⟨4, ![1, 1, 47, 156]⟩
abbrev S2x32x120x47x156 : Shape := ⟨5, ![2, 32, 120, 47, 156]⟩
abbrev S1x32x47x156 : Shape := ⟨4, ![1, 32, 47, 156]⟩
abbrev S1x4x47x156 : Shape := ⟨4, ![1, 4, 47, 156]⟩
abbrev S1x32x4x47x156 : Shape := ⟨5, ![1, 32, 4, 47, 156]⟩
abbrev S1x32x1x47x156 : Shape := ⟨5, ![1, 32, 1, 47, 156]⟩
abbrev S1x1x4x47x156 : Shape := ⟨5, ![1, 1, 4, 47, 156]⟩

abbrev nBuf : Space → Nat
  | .hbm => 27
  | .vmem => 18
  | .smem => 0
  | _ => 0

abbrev bufTy : (tb : Table) → Fin (tcTables nBuf tb) → BufTy
  | .hbm, ⟨0, _⟩ => ⟨S2x32x47x156, .f32⟩
  | .hbm, ⟨1, _⟩ => ⟨S2x121x47x156, .f32⟩
  | .hbm, ⟨2, _⟩ => ⟨S2x376x1248, .f32⟩
  | .hbm, ⟨3, _⟩ => ⟨S2x47x156, .i32⟩
  | .hbm, ⟨4, _⟩ => ⟨S2x47x8x156x8, .f32⟩
  | .hbm, ⟨5, _⟩ => ⟨S_, .f32⟩
  | .hbm, ⟨6, _⟩ => ⟨S2x47x156, .f32⟩
  | .hbm, ⟨7, _⟩ => ⟨S_, .f32⟩
  | .hbm, ⟨8, _⟩ => ⟨S2x47x156, .f32⟩
  | .hbm, ⟨9, _⟩ => ⟨S2x47x156, .f32⟩
  | .hbm, ⟨10, _⟩ => ⟨S_, .f32⟩
  | .hbm, ⟨11, _⟩ => ⟨S2x47x8x156x8, .f32⟩
  | .hbm, ⟨12, _⟩ => ⟨S2x47x8x156x8, .i1⟩
  | .hbm, ⟨13, _⟩ => ⟨S2x47x8x156x8, .f32⟩
  | .hbm, ⟨14, _⟩ => ⟨S_, .f32⟩
  | .hbm, ⟨15, _⟩ => ⟨S2x47x156, .f32⟩
  | .hbm, ⟨16, _⟩ => ⟨S_, .f32⟩
  | .hbm, ⟨17, _⟩ => ⟨S2x47x156, .f32⟩
  | .hbm, ⟨18, _⟩ => ⟨S2x47x156, .f32⟩
  | .hbm, ⟨19, _⟩ => ⟨S_, .f32⟩
  | .hbm, ⟨20, _⟩ => ⟨S2x47x156, .f32⟩
  | .hbm, ⟨21, _⟩ => ⟨S2x47x156, .f32⟩
  | .hbm, ⟨22, _⟩ => ⟨S2x47x156, .f32⟩
  | .hbm, ⟨23, _⟩ => ⟨S2x120x47x156, .f32⟩
  | .hbm, ⟨24, _⟩ => ⟨S2x120x47x156, .f32⟩
  | .hbm, ⟨25, _⟩ => ⟨S2x32x120x47x156, .f32⟩
  | .hbm, ⟨26, _⟩ => ⟨S2x32x120x47x156, .f32⟩
  | .local _ .vmem, ⟨0, _⟩ => ⟨S1x121x47x156, .f32⟩
  | .local _ .vmem, ⟨1, _⟩ => ⟨S1x121x47x156, .f32⟩
  | .local _ .vmem, ⟨2, _⟩ => ⟨S1x47x156, .i32⟩
  | .local _ .vmem, ⟨3, _⟩ => ⟨S1x47x156, .i32⟩
  | .local _ .vmem, ⟨4, _⟩ => ⟨S1x120x47x156, .f32⟩
  | .local _ .vmem, ⟨5, _⟩ => ⟨S1x120x47x156, .f32⟩
  | .local _ .vmem, ⟨6, _⟩ => ⟨S1x120x47x156, .f32⟩
  | .local _ .vmem, ⟨7, _⟩ => ⟨S1x120x47x156, .f32⟩
  | .local _ .vmem, ⟨8, _⟩ => ⟨S1x32x47x156, .f32⟩
  | .local _ .vmem, ⟨9, _⟩ => ⟨S1x32x47x156, .f32⟩
  | .local _ .vmem, ⟨10, _⟩ => ⟨S1x4x47x156, .f32⟩
  | .local _ .vmem, ⟨11, _⟩ => ⟨S1x4x47x156, .f32⟩
  | .local _ .vmem, ⟨12, _⟩ => ⟨S1x4x47x156, .f32⟩
  | .local _ .vmem, ⟨13, _⟩ => ⟨S1x4x47x156, .f32⟩
  | .local _ .vmem, ⟨14, _⟩ => ⟨S1x32x4x47x156, .f32⟩
  | .local _ .vmem, ⟨15, _⟩ => ⟨S1x32x4x47x156, .f32⟩
  | .local _ .vmem, ⟨16, _⟩ => ⟨S1x32x4x47x156, .f32⟩
  | .local _ .vmem, ⟨17, _⟩ => ⟨S1x32x4x47x156, .f32⟩
  | _, _ => ⟨S2x32x47x156, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14_0 : Ref sig .tc := ⟨.hbm, 25, rfl⟩
abbrev main_v14_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x121x47x156 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x47x156 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x120x47x156 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x120x47x156 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 30], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_4 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage1_0 : Fin 2 → Memref sig .tc .vmem S1x32x47x156 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4x47x156 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4x47x156 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x32x4x47x156 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x32x4x47x156 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S2x376x1248_S2x47x8x156x8 : S2x376x1248.ShapeCasts S2x47x8x156x8
  reducesTo_S2x47x8x156x8_S2x47x156_d2_4 : S2x47x8x156x8.ReducesTo [2, 4] S2x47x156
  h_S_ : 0 < S_.numel
  bcast_S_S2x47x156 : S_.BroadcastsInDim S2x47x156 (![] : Fin 0 → Fin S2x47x156.rank)
  bcast_S_S2x47x8x156x8 : S_.BroadcastsInDim S2x47x8x156x8 (![] : Fin 0 → Fin S2x47x8x156x8.rank)
  inb_S1x121x47x156_S1x121x47x156_0_0_0_0 : ∀ a, (![0, 0, 0, 0] : Fin 4 → Nat) a + S1x121x47x156.size a ≤ S1x121x47x156.size a
  h_S1x121x47x156 : 0 < S1x121x47x156.numel
  reduces_S1x121x47x156_S1x47x156 : S1x121x47x156.Reduces [1] S1x47x156
  shapeCasts_S1x47x156_S1x1x47x156 : S1x47x156.ShapeCasts S1x1x47x156
  broadcasts_S1x1x47x156_S1x121x47x156 : S1x1x47x156.Broadcasts S1x121x47x156
  slices_S1x121x47x156_o0_0_0_0_S1x120x47x156 : S1x121x47x156.Slices ![0, 0, 0, 0] S1x120x47x156
  inb_S1x120x47x156_S1x120x47x156_0_0_0_0 : ∀ a, (![0, 0, 0, 0] : Fin 4 → Nat) a + S1x120x47x156.size a ≤ S1x120x47x156.size a
  h_S1x120x47x156 : 0 < S1x120x47x156.numel
  inb_S1x47x156_S1x47x156_0_0_0 : ∀ a, (![0, 0, 0] : Fin 3 → Nat) a + S1x47x156.size a ≤ S1x47x156.size a
  h_S1x47x156 : 0 < S1x47x156.numel
  iota_S1x120x47x156_d1_w32 : S1x120x47x156.Iotas .tc 32 [1]
  broadcasts_S1x1x47x156_S1x120x47x156 : S1x1x47x156.Broadcasts S1x120x47x156
  natLt_1_32 : 1 < 32
  inb_S1x32x47x156_S1x32x47x156_0_0_0_0 : ∀ a, (![0, 0, 0, 0] : Fin 4 → Nat) a + S1x32x47x156.size a ≤ S1x32x47x156.size a
  h_S1x32x47x156 : 0 < S1x32x47x156.numel
  inb_S1x4x47x156_S1x4x47x156_0_0_0_0 : ∀ a, (![0, 0, 0, 0] : Fin 4 → Nat) a + S1x4x47x156.size a ≤ S1x4x47x156.size a
  h_S1x4x47x156 : 0 < S1x4x47x156.numel
  shapeCasts_S1x4x47x156_S1x4x47x156 : S1x4x47x156.ShapeCasts S1x4x47x156
  shapeCasts_S1x32x47x156_S1x32x1x47x156 : S1x32x47x156.ShapeCasts S1x32x1x47x156
  shapeCasts_S1x4x47x156_S1x1x4x47x156 : S1x4x47x156.ShapeCasts S1x1x4x47x156
  broadcasts_S1x32x1x47x156_S1x32x4x47x156 : S1x32x1x47x156.Broadcasts S1x32x4x47x156
  broadcasts_S1x1x4x47x156_S1x32x4x47x156 : S1x1x4x47x156.Broadcasts S1x32x4x47x156
  inb_S1x32x4x47x156_S1x32x4x47x156_0_0_0_0_0 : ∀ a, (![0, 0, 0, 0, 0] : Fin 5 → Nat) a + S1x32x4x47x156.size a ≤ S1x32x4x47x156.size a
  h_S1x32x4x47x156 : 0 < S1x32x4x47x156.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x121x47x156.size a ≤ S2x121x47x156.size a
  hwx0_0 : ∀ i : grid0.Coords, EltTy.bits .f32 = 32 ∨ (Rect.block (s := S2x121x47x156) S1x121x47x156.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x47x156.size a ≤ S2x47x156.size a
  hwx0_1 : ∀ i : grid0.Coords, EltTy.bits .i32 = 32 ∨ (Rect.block (s := S2x47x156) S1x47x156.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x120x47x156.size a ≤ S2x120x47x156.size a
  hwx0_2 : ∀ i : grid0.Coords, EltTy.bits .f32 = 32 ∨ (Rect.block (s := S2x120x47x156) S1x120x47x156.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x120x47x156.size a ≤ S2x120x47x156.size a
  hwx0_3 : ∀ i : grid0.Coords, EltTy.bits .f32 = 32 ∨ (Rect.block (s := S2x120x47x156) S1x120x47x156.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x47x156.size a ≤ S2x32x47x156.size a
  hwx1_0 : ∀ i : grid1.Coords, EltTy.bits .f32 = 32 ∨ (Rect.block (s := S2x32x47x156) S1x32x47x156.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x47x156.size a ≤ S2x120x47x156.size a
  hwx1_1 : ∀ i : grid1.Coords, EltTy.bits .f32 = 32 ∨ (Rect.block (s := S2x120x47x156) S1x4x47x156.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x47x156.size a ≤ S2x120x47x156.size a
  hwx1_2 : ∀ i : grid1.Coords, EltTy.bits .f32 = 32 ∨ (Rect.block (s := S2x120x47x156) S1x4x47x156.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x4x47x156.size a ≤ S2x32x120x47x156.size a
  hwx1_3 : ∀ i : grid1.Coords, EltTy.bits .f32 = 32 ∨ (Rect.block (s := S2x32x120x47x156) S1x32x4x47x156.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x32x4x47x156.size a ≤ S2x32x120x47x156.size a
  hwx1_4 : ∀ i : grid1.Coords, EltTy.bits .f32 = 32 ∨ (Rect.block (s := S2x32x120x47x156) S1x32x4x47x156.size (cc1_transform_4 i) (hinb1_4 i)).WholeWords (EltTy.packing .f32)

variable [Facts₀]

abbrev win0_0 : Pipeline.Window sig grid0 :=
  Pipeline.Window.ofSpec (Memref.whole main_arg1) S1x121x47x156.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x47x156.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S1x120x47x156.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S1x120x47x156.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x32x47x156.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_0) S1x4x47x156.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_1) S1x4x47x156.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14_0) S1x32x4x47x156.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14_1) S1x32x4x47x156.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x32x47x156 : Shape := ⟨4, ![2, 32, 47, 156]⟩
abbrev S2x121x47x156 : Shape := ⟨4, ![2, 121, 47, 156]⟩
abbrev S2x376x1248 : Shape := ⟨3, ![2, 376, 1248]⟩
abbrev S2x47x156 : Shape := ⟨3, ![2, 47, 156]⟩
abbrev S2x47x8x156x8 : Shape := ⟨5, ![2, 47, 8, 156, 8]⟩
abbrev S_ : Shape := ⟨0, ![]⟩
abbrev S2x47x156x1 : Shape := ⟨4, ![2, 47, 156, 1]⟩
abbrev S1x1x1x121 : Shape := ⟨4, ![1, 1, 1, 121]⟩
abbrev S2x47x156x121 : Shape := ⟨4, ![2, 47, 156, 121]⟩
abbrev S2x1x47x156 : Shape := ⟨4, ![2, 1, 47, 156]⟩
abbrev S2x120x47x156 : Shape := ⟨4, ![2, 120, 47, 156]⟩
abbrev S2x1x120x47x156 : Shape := ⟨5, ![2, 1, 120, 47, 156]⟩
abbrev S2x32x1x47x156 : Shape := ⟨5, ![2, 32, 1, 47, 156]⟩
abbrev S2x32x120x47x156 : Shape := ⟨5, ![2, 32, 120, 47, 156]⟩

abbrev nBuf : Space → Nat
  | .hbm => 68
  | .vmem => 0
  | .smem => 0
  | _ => 0

abbrev bufTy : (tb : Table) → Fin (tcTables nBuf tb) → BufTy
  | .hbm, ⟨0, _⟩ => ⟨S2x32x47x156, .f32⟩
  | .hbm, ⟨1, _⟩ => ⟨S2x121x47x156, .f32⟩
  | .hbm, ⟨2, _⟩ => ⟨S2x376x1248, .f32⟩
  | .hbm, ⟨3, _⟩ => ⟨S2x47x156, .i32⟩
  | .hbm, ⟨4, _⟩ => ⟨S2x47x8x156x8, .f32⟩
  | .hbm, ⟨5, _⟩ => ⟨S_, .f32⟩
  | .hbm, ⟨6, _⟩ => ⟨S2x47x156, .f32⟩
  | .hbm, ⟨7, _⟩ => ⟨S_, .f32⟩
  | .hbm, ⟨8, _⟩ => ⟨S2x47x156, .f32⟩
  | .hbm, ⟨9, _⟩ => ⟨S2x47x156, .f32⟩
  | .hbm, ⟨10, _⟩ => ⟨S_, .f32⟩
  | .hbm, ⟨11, _⟩ => ⟨S2x47x8x156x8, .f32⟩
  | .hbm, ⟨12, _⟩ => ⟨S2x47x8x156x8, .i1⟩
  | .hbm, ⟨13, _⟩ => ⟨S2x47x8x156x8, .f32⟩
  | .hbm, ⟨14, _⟩ => ⟨S_, .f32⟩
  | .hbm, ⟨15, _⟩ => ⟨S2x47x156, .f32⟩
  | .hbm, ⟨16, _⟩ => ⟨S_, .f32⟩
  | .hbm, ⟨17, _⟩ => ⟨S2x47x156, .f32⟩
  | .hbm, ⟨18, _⟩ => ⟨S2x47x156, .f32⟩
  | .hbm, ⟨19, _⟩ => ⟨S_, .f32⟩
  | .hbm, ⟨20, _⟩ => ⟨S2x47x156, .f32⟩
  | .hbm, ⟨21, _⟩ => ⟨S2x47x156, .f32⟩
  | .hbm, ⟨22, _⟩ => ⟨S2x47x156, .f32⟩
  | .hbm, ⟨23, _⟩ => ⟨S2x47x156x1, .i32⟩
  | .hbm, ⟨24, _⟩ => ⟨S1x1x1x121, .i32⟩
  | .hbm, ⟨25, _⟩ => ⟨S2x47x156x121, .i32⟩
  | .hbm, ⟨26, _⟩ => ⟨S2x47x156x121, .i32⟩
  | .hbm, ⟨27, _⟩ => ⟨S2x47x156x121, .i1⟩
  | .hbm, ⟨28, _⟩ => ⟨S2x47x156x121, .f32⟩
  | .hbm, ⟨29, _⟩ => ⟨S_, .i32⟩
  | .hbm, ⟨30, _⟩ => ⟨S2x47x156, .i32⟩
  | .hbm, ⟨31, _⟩ => ⟨S2x47x156, .i1⟩
  | .hbm, ⟨32, _⟩ => ⟨S_, .f32⟩
  | .hbm, ⟨33, _⟩ => ⟨S_, .f32⟩
  | .hbm, ⟨34, _⟩ => ⟨S2x47x156, .f32⟩
  | .hbm, ⟨35, _⟩ => ⟨S2x47x156, .f32⟩
  | .hbm, ⟨36, _⟩ => ⟨S2x47x156, .f32⟩
  | .hbm, ⟨37, _⟩ => ⟨S2x47x156, .f32⟩
  | .hbm, ⟨38, _⟩ => ⟨S2x47x156x1, .f32⟩
  | .hbm, ⟨39, _⟩ => ⟨S2x47x156x121, .f32⟩
  | .hbm, ⟨40, _⟩ => ⟨S2x47x156x121, .f32⟩
  | .hbm, ⟨41, _⟩ => ⟨S2x121x47x156, .f32⟩
  | .hbm, ⟨42, _⟩ => ⟨S_, .f32⟩
  | .hbm, ⟨43, _⟩ => ⟨S2x47x156, .f32⟩
  | .hbm, ⟨44, _⟩ => ⟨S_, .f32⟩
  | .hbm, ⟨45, _⟩ => ⟨S2x47x156, .f32⟩
  | .hbm, ⟨46, _⟩ => ⟨S2x47x156, .f32⟩
  | .hbm, ⟨47, _⟩ => ⟨S2x1x47x156, .f32⟩
  | .hbm, ⟨48, _⟩ => ⟨S2x121x47x156, .f32⟩
  | .hbm, ⟨49, _⟩ => ⟨S2x121x47x156, .f32⟩
  | .hbm, ⟨50, _⟩ => ⟨S2x121x47x156, .f32⟩
  | .hbm, ⟨51, _⟩ => ⟨S_, .f32⟩
  | .hbm, ⟨52, _⟩ => ⟨S2x47x156, .f32⟩
  | .hbm, ⟨53, _⟩ => ⟨S2x1x47x156, .f32⟩
  | .hbm, ⟨54, _⟩ => ⟨S2x121x47x156, .f32⟩
  | .hbm, ⟨55, _⟩ => ⟨S2x121x47x156, .f32⟩
  | .hbm, ⟨56, _⟩ => ⟨S2x120x47x156, .f32⟩
  | .hbm, ⟨57, _⟩ => ⟨S2x1x120x47x156, .f32⟩
  | .hbm, ⟨58, _⟩ => ⟨S2x32x1x47x156, .f32⟩
  | .hbm, ⟨59, _⟩ => ⟨S2x32x120x47x156, .f32⟩
  | .hbm, ⟨60, _⟩ => ⟨S2x32x120x47x156, .f32⟩
  | .hbm, ⟨61, _⟩ => ⟨S2x32x120x47x156, .f32⟩
  | .hbm, ⟨62, _⟩ => ⟨S2x120x47x156, .f32⟩
  | .hbm, ⟨63, _⟩ => ⟨S2x1x120x47x156, .f32⟩
  | .hbm, ⟨64, _⟩ => ⟨S2x32x1x47x156, .f32⟩
  | .hbm, ⟨65, _⟩ => ⟨S2x32x120x47x156, .f32⟩
  | .hbm, ⟨66, _⟩ => ⟨S2x32x120x47x156, .f32⟩
  | .hbm, ⟨67, _⟩ => ⟨S2x32x120x47x156, .f32⟩
  | _, _ => ⟨S2x32x47x156, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_cst_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]

class Facts₀ : Prop where
  shapeCasts_S2x376x1248_S2x47x8x156x8 : S2x376x1248.ShapeCasts S2x47x8x156x8
  reducesTo_S2x47x8x156x8_S2x47x156_d2_4 : S2x47x8x156x8.ReducesTo [2, 4] S2x47x156
  h_S_ : 0 < S_.numel
  bcast_S_S2x47x156 : S_.BroadcastsInDim S2x47x156 (![] : Fin 0 → Fin S2x47x156.rank)
  bcast_S_S2x47x8x156x8 : S_.BroadcastsInDim S2x47x8x156x8 (![] : Fin 0 → Fin S2x47x8x156x8.rank)
  bcast_S2x47x156_S2x47x156x1_0_1_2 : S2x47x156.BroadcastsInDim S2x47x156x1 (![0, 1, 2] : Fin 3 → Fin S2x47x156x1.rank)
  bcast_S2x47x156x1_S2x47x156x121_0_1_2_3 : S2x47x156x1.BroadcastsInDim S2x47x156x121 (![0, 1, 2, 3] : Fin 4 → Fin S2x47x156x121.rank)
  bcast_S1x1x1x121_S2x47x156x121_0_1_2_3 : S1x1x1x121.BroadcastsInDim S2x47x156x121 (![0, 1, 2, 3] : Fin 4 → Fin S2x47x156x121.rank)
  transposes_S2x47x156x121_S2x121x47x156_0_3_1_2 : S2x47x156x121.Transposes [0, 3, 1, 2] S2x121x47x156
  reducesTo_S2x121x47x156_S2x47x156_d1 : S2x121x47x156.ReducesTo [1] S2x47x156
  bcast_S2x47x156_S2x1x47x156_0_2_3 : S2x47x156.BroadcastsInDim S2x1x47x156 (![0, 2, 3] : Fin 3 → Fin S2x1x47x156.rank)
  bcast_S2x1x47x156_S2x121x47x156_0_1_2_3 : S2x1x47x156.BroadcastsInDim S2x121x47x156 (![0, 1, 2, 3] : Fin 4 → Fin S2x121x47x156.rank)
  slices_S2x121x47x156_S2x120x47x156_0_0_0_0 : S2x121x47x156.Slices ![0, 0, 0, 0] S2x120x47x156
  bcast_S2x120x47x156_S2x1x120x47x156_0_2_3_4 : S2x120x47x156.BroadcastsInDim S2x1x120x47x156 (![0, 2, 3, 4] : Fin 4 → Fin S2x1x120x47x156.rank)
  bcast_S2x32x47x156_S2x32x1x47x156_0_1_3_4 : S2x32x47x156.BroadcastsInDim S2x32x1x47x156 (![0, 1, 3, 4] : Fin 4 → Fin S2x32x1x47x156.rank)
  bcast_S2x1x120x47x156_S2x32x120x47x156_0_1_2_3_4 : S2x1x120x47x156.BroadcastsInDim S2x32x120x47x156 (![0, 1, 2, 3, 4] : Fin 5 → Fin S2x32x120x47x156.rank)
  bcast_S2x32x1x47x156_S2x32x120x47x156_0_1_2_3_4 : S2x32x1x47x156.BroadcastsInDim S2x32x120x47x156 (![0, 1, 2, 3, 4] : Fin 5 → Fin S2x32x120x47x156.rank)

variable [Facts₀]

class Facts : Prop extends Facts₀ where

variable [Facts]
-- ==== Proof.KernelRun.lean ====
/-
  The idealized kernel program's run, read at its three results.

  @main is a stretch of host operations (the pooled depth map), the call that makes the softmax
  probabilities and the one-hot targets, and the call that multiplies each of them with the image
  features. The buffer contents after these three segments are `Gen.W1`, `Gen.W2` and `Gen.W3`: a host
  operation's result overwrites its buffer, a call's output arrays take what its write-backs leave,
  and every other buffer keeps its contents. Every weakly fair execution terminates with each
  unscoped buffer at its `Gen.W3` contents; read at the three result buffers and at the four
  argument buffers (which no segment writes), that is the statement below.
-/
import proofs.«101830_j77403900609179_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in the final memory the two
    frustum arrays and the pooled depth map hold the last boundary's contents `Gen.W3`, while the four
    argument arrays are as launched. -/
theorem run_W3 : θ_run defs (onTc (τ := τ) (main (F := F))) ⟨m, fun _ => 0, ρ⟩ (fun r => ∀ c : Dev nD,
      r.2.mem ((c.tc : Thread nD τ).loc main_v14_0) = W3 m ρ c (Proc.devRef .tc main_v14_0)
      ∧ r.2.mem ((c.tc : Thread nD τ).loc main_v14_1) = W3 m ρ c (Proc.devRef .tc main_v14_1)
      ∧ r.2.mem ((c.tc : Thread nD τ).loc main_v12) = W3 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14_0 (by decide)),
       h c _ (mem_uc main_v14_1 (by decide)),
       h c _ (mem_uc main_v12 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.RunValue

end
-- ==== Proof.MulBody.lean ====
/-
  The second kernel's two stored values, read at one element of the output block.

  The body views its image block [1, 32, 47, 156] as [1, 32, 1, 47, 156] and a [1, 4, 47, 156] block
  of probabilities (or of targets) as [1, 1, 4, 47, 156], repeats both to [1, 32, 4, 47, 156] and
  multiplies. At the element (0, c, d, h, w) the product is img (0, c, h, w) · p (0, d, h, w).
-/
import proofs.«101830_j77403900609179_2_alg».proof.Proof.Gen.KernelIdeal.Skeleton
import Idealize.ShloMosaic.Lib.Pipeline.Value
import Idealize.ShloMosaic.Lib.ValueIdx

noncomputable section

namespace Cert.KernelIdeal.Bodies

open Cert.KernelIdeal Cert.KernelIdeal.Gen Idealize.ShloMosaic Idealize.ShloMosaic.ValueIdx

/-- The image block with a unit axis inserted after the channels reads the block at the same channel and pixel. -/
theorem imgCast_apply (x0 : Vec Ideal S1x32x47x156 .f32) (c : Fin 32) (h : Fin 47) (w : Fin 156) :
    k1_pay1 x0 (ix5 (0 : Fin 1) c (0 : Fin 1) h w) = x0 (ix4 (0 : Fin 1) c h w) := by
  unfold k1_pay1
  exact shapeCast_apply x0 shapeCasts_S1x32x47x156_S1x32x1x47x156 (ix5 (0 : Fin 1) c (0 : Fin 1) h w) (ix4 (0 : Fin 1) c h w)
    (by rw [Shape.rowMajor_val_four, Shape.rowMajor_val_five]
        show ((0 * 32 + c.val) * 47 + h.val) * 156 + w.val = (((0 * 32 + c.val) * 1 + 0) * 47 + h.val) * 156 + w.val
        omega)

/-- A [1, 4, 47, 156] block recast to itself and then given a leading unit axis reads the block at the same
    bin and pixel. -/
theorem binCast_apply (x1 : Vec Ideal S1x4x47x156 .f32) (d : Fin 4) (h : Fin 47) (w : Fin 156) :
    shapeCast S1x1x4x47x156 (shapeCast S1x4x47x156 x1 shapeCasts_S1x4x47x156_S1x4x47x156) shapeCasts_S1x4x47x156_S1x1x4x47x156
        (ix5 (0 : Fin 1) (0 : Fin 1) d h w) = x1 (ix4 (0 : Fin 1) d h w) := by
  rw [shapeCast_self]
  exact shapeCast_apply x1 shapeCasts_S1x4x47x156_S1x1x4x47x156 (ix5 (0 : Fin 1) (0 : Fin 1) d h w) (ix4 (0 : Fin 1) d h w)
    (by rw [Shape.rowMajor_val_four, Shape.rowMajor_val_five]
        show ((0 * 4 + d.val) * 47 + h.val) * 156 + w.val = (((0 * 1 + 0) * 4 + d.val) * 47 + h.val) * 156 + w.val
        omega)

/-- The image factor repeated along the bins. -/
theorem imgBcast_apply (x0 : Vec Ideal S1x32x47x156 .f32) (c : Fin 32) (d : Fin 4) (h : Fin 47) (w : Fin 156) :
    broadcastTo S1x32x4x47x156 (k1_pay1 x0) broadcasts_S1x32x1x47x156_S1x32x4x47x156 (ix5 (0 : Fin 1) c d h w)
      = x0 (ix4 (0 : Fin 1) c h w) :=
  (broadcastTo_apply (k1_pay1 x0) broadcasts_S1x32x1x47x156_S1x32x4x47x156 (ix5 (0 : Fin 1) c d h w)
    (ix5 (0 : Fin 1) c (0 : Fin 1) h w)
    (fun a => match a with | ⟨0, _⟩ => rfl | ⟨1, _⟩ => rfl | ⟨2, _⟩ => rfl | ⟨3, _⟩ => rfl | ⟨4, _⟩ => rfl)).trans
    (imgCast_apply x0 c h w)

/-- The bin factor repeated along the channels. -/
theorem binBcast_apply (x1 : Vec Ideal S1x4x47x156 .f32) (c : Fin 32) (d : Fin 4) (h : Fin 47) (w : Fin 156) :
    broadcastTo S1x32x4x47x156
        (shapeCast S1x1x4x47x156 (shapeCast S1x4x47x156 x1 shapeCasts_S1x4x47x156_S1x4x47x156) shapeCasts_S1x4x47x156_S1x1x4x47x156)
        broadcasts_S1x1x4x47x156_S1x32x4x47x156 (ix5 (0 : Fin 1) c d h w)
      = x1 (ix4 (0 : Fin 1) d h w) :=
  (broadcastTo_apply _ broadcasts_S1x1x4x47x156_S1x32x4x47x156 (ix5 (0 : Fin 1) c d h w)
    (ix5 (0 : Fin 1) (0 : Fin 1) d h w)
    (fun a => match a with | ⟨0, _⟩ => rfl | ⟨1, _⟩ => rfl | ⟨2, _⟩ => rfl | ⟨3, _⟩ => rfl | ⟨4, _⟩ => rfl)).trans
    (binCast_apply x1 d h w)

/-- The value stored to the first output block, at one element. -/
theorem k1_pay2_apply (x0 : Vec Ideal S1x32x47x156 .f32) (x1 : Vec Ideal S1x4x47x156 .f32)
    (c : Fin 32) (d : Fin 4) (h : Fin 47) (w : Fin 156) :
    k1_pay2 x0 x1 (ix5 (0 : Fin 1) c d h w) = x0 (ix4 (0 : Fin 1) c h w) * x1 (ix4 (0 : Fin 1) d h w) := by
  unfold k1_pay2
  exact congrArg₂ (fun a b : EReal => a * b) (imgBcast_apply x0 c d h w) (binBcast_apply x1 c d h w)

/-- The value stored to the second output block, at one element. -/
theorem k1_pay3_apply (x0 : Vec Ideal S1x32x47x156 .f32) (x2 : Vec Ideal S1x4x47x156 .f32)
    (c : Fin 32) (d : Fin 4) (h : Fin 47) (w : Fin 156) :
    k1_pay3 x0 x2 (ix5 (0 : Fin 1) c d h w) = x0 (ix4 (0 : Fin 1) c h w) * x2 (ix4 (0 : Fin 1) d h w) := by
  unfold k1_pay3
  exact congrArg₂ (fun a b : EReal => a * b) (imgBcast_apply x0 c d h w) (binBcast_apply x2 c d h w)

end Cert.KernelIdeal.Bodies

end
-- ==== Proof.Spec.lean ====
/-
  The three results as functions of the argument arrays, over the extended reals.

  For a pixel (b, h, w) the 121 logits form a row r. With M the maximum of the row taken from −∞,
  the probability of bin d is exp (r d − M) / Σₖ exp (r k − M); only the first 120 bins are kept.
  The target of bin d < 120 is 1 when the pixel's bin index is d and 0 otherwise. Each of the two
  [2, 120, 47, 156] arrays is then multiplied, channel by channel, with the image features:
  out (b, c, d, h, w) = img (b, c, h, w) · p (b, d, h, w).
-/
import Idealize.ShloMosaic.PureOps.Ideal
import Idealize.ShloMosaic.PureOps.Ideal.Laws
import Idealize.ShloMosaic.Lib.ValueIdx
import Idealize.ShloMosaic.Lib.IdealHost

noncomputable section

namespace Cert.Frustum

open Idealize.ShloMosaic Idealize.ShloMosaic.ValueIdx

abbrev SLogits : Shape := ⟨4, ![2, 121, 47, 156]⟩
abbrev SProbs : Shape := ⟨4, ![2, 120, 47, 156]⟩
abbrev SBins : Shape := ⟨3, ![2, 47, 156]⟩
abbrev SImg : Shape := ⟨4, ![2, 32, 47, 156]⟩
abbrev SOut : Shape := ⟨5, ![2, 32, 120, 47, 156]⟩

/-! ## The softmax of one pixel's row -/

/-- The 121 logits of the pixel (b, h, w). -/
def pixelRow (x : SLogits.Idx → EReal) (b : Fin 2) (h : Fin 47) (w : Fin 156) : Fin 121 → EReal :=
  fun k => x (ix4 b k h w)

/-- The row's maximum, folded from the f32 pattern of −∞. -/
def rowMax (r : Fin 121 → EReal) : EReal :=
  (Finset.univ : Finset (Fin 121)).fold max (Ideal.ofBits .f32 0xFF800000#32) r

/-- The softmax of a row at one of its entries: exp (r d − M) over the sum of the shifted exponentials. -/
def softmaxRow (r : Fin 121 → EReal) (d : Fin 121) : EReal :=
  Ideal.div (Ideal.exp (r d - rowMax r)) (∑ k : Fin 121, Ideal.exp (r k - rowMax r))

/-- Taking the maximum with the fold's own starting value once more changes nothing. -/
theorem max_init_rowMax (r : Fin 121 → EReal) : max (Ideal.ofBits .f32 0xFF800000#32) (rowMax r) = rowMax r :=
  max_eq_right ((Finset.le_fold_max _).2 (Or.inl le_rfl))

/-- The probability of bin d < 120 at the pixel (b, h, w). -/
def probsAt (x : SLogits.Idx → EReal) (b : Fin 2) (d : Fin 120) (h : Fin 47) (w : Fin 156) : EReal :=
  softmaxRow (pixelRow x b h w) d.castSucc

/-- The kept probabilities as one array. -/
def probs (x : SLogits.Idx → EReal) : SProbs.Idx → EReal :=
  fun i => probsAt x (i 0) (i 1) (i 2) (i 3)

theorem probs_ix (x : SLogits.Idx → EReal) (b : Fin 2) (d : Fin 120) (h : Fin 47) (w : Fin 156) :
    probs x (ix4 b d h w) = probsAt x b d h w := rfl

/-! ## The one-hot target -/

/-- 1 when the bin index is d, else 0. -/
def hotBit (bin : BitVec 32) (d : Fin 120) : EReal := if bin = BitVec.ofNat 32 d.val then 1 else 0

/-- The targets as one array. -/
def targets (x : SBins.Idx → BitVec 32) : SProbs.Idx → EReal :=
  fun i => hotBit (x (ix3 (i 0) (i 2) (i 3))) (i 1)

theorem targets_ix (x : SBins.Idx → BitVec 32) (b : Fin 2) (d : Fin 120) (h : Fin 47) (w : Fin 156) :
    targets x (ix4 b d h w) = hotBit (x (ix3 b h w)) d := rfl

/-- The comparison "position = bin index", widened and converted as a signed integer, is the 0/1 indicator. -/
theorem hotBit_of_iota_eq (bin : BitVec 32) (d : Fin 120) :
    (FloatOps.sitofp (F := Ideal) .f32 ((IntOp.cmpi .eq (BitVec.ofNat 32 d.val) bin).setWidth 32) : EReal) = hotBit bin d := by
  unfold hotBit
  by_cases h : bin = BitVec.ofNat 32 d.val
  · subst h
    rw [if_pos rfl]
    show (((((IntOp.cmpi .eq (BitVec.ofNat 32 d.val) (BitVec.ofNat 32 d.val)).setWidth 32).toInt : ℝ)) : EReal) = 1
    have e : IntOp.cmpi .eq (BitVec.ofNat 32 d.val) (BitVec.ofNat 32 d.val) = 1#1 := by simp [IntOp.cmpi]
    rw [e]; norm_num
  · rw [if_neg h]
    show (((((IntOp.cmpi .eq (BitVec.ofNat 32 d.val) bin).setWidth 32).toInt : ℝ)) : EReal) = 0
    have e : IntOp.cmpi .eq (BitVec.ofNat 32 d.val) bin = 0#1 := by
      have hb : (BitVec.ofNat 32 d.val == bin) = false := beq_false_of_ne fun e => h e.symm
      simp only [IntOp.cmpi, hb]; rfl
    rw [e]; norm_num

/-- The comparison "bin index = position" converted as an unsigned integer and multiplied by the weight
    (100000 at the overflow bin 120, else 1) is the same indicator at every kept position d < 120: where
    the indicator is 1 the bin index is d ≠ 120 and the weight is 1; elsewhere the product is 0 · weight = 0. -/
theorem hotBit_of_eq_mul_weight (bin : BitVec 32) (d : Fin 120) :
    (FloatOps.uitofp (F := Ideal) .f32 (IntOp.cmpi .eq bin (BitVec.ofNat 32 d.val)) : EReal)
        * Scalar.select (IntOp.cmpi .eq bin 120#32) (Ideal.ofBits .f32 0x47C35000#32) (Ideal.ofBits .f32 0x3F800000#32)
      = hotBit bin d := by
  unfold hotBit
  by_cases h : bin = BitVec.ofNat 32 d.val
  · subst h
    rw [if_pos rfl]
    have e : IntOp.cmpi .eq (BitVec.ofNat 32 d.val) (BitVec.ofNat 32 d.val) = 1#1 := by simp [IntOp.cmpi]
    have hne : BitVec.ofNat 32 d.val ≠ 120#32 := by
      intro e'
      have := congrArg BitVec.toNat e'
      have hd := d.isLt
      simp [BitVec.toNat_ofNat] at this
      omega
    have e2 : IntOp.cmpi .eq (BitVec.ofNat 32 d.val) 120#32 = 0#1 := by
      have hb : (BitVec.ofNat 32 d.val == 120#32) = false := beq_false_of_ne hne
      simp only [IntOp.cmpi, hb]; rfl
    rw [e, e2, select_zero, Ideal.ofBits_one_f32]
    show (((((1#1 : BitVec 1).toNat : ℝ)) : EReal)) * 1 = 1
    norm_num
  · rw [if_neg h]
    have e : IntOp.cmpi .eq bin (BitVec.ofNat 32 d.val) = 0#1 := by
      have hb : (bin == BitVec.ofNat 32 d.val) = false := beq_false_of_ne h
      simp only [IntOp.cmpi, hb]; rfl
    rw [e]
    show (((((0#1 : BitVec 1).toNat : ℝ)) : EReal)) * _ = 0
    norm_num

/-! ## The outer product with the image features -/

/-- out (b, c, d, h, w) = img (b, c, h, w) · p (b, d, h, w). -/
def frustum (img : SImg.Idx → EReal) (p : SProbs.Idx → EReal) : SOut.Idx → EReal :=
  fun i => img (ix4 (i 0) (i 1) (i 3) (i 4)) * p (ix4 (i 0) (i 2) (i 3) (i 4))

theorem frustum_ix (img : SImg.Idx → EReal) (p : SProbs.Idx → EReal) (b : Fin 2) (c : Fin 32) (d : Fin 120) (h : Fin 47) (w : Fin 156) :
    frustum img p (ix5 b c d h w) = img (ix4 b c h w) * p (ix4 b d h w) := rfl

end Cert.Frustum

end
-- ==== Proof.MulValue.lean ====
/-
  The second call's two output arrays as whole-array functions of its three input arrays.

  The grid has one point per batch entry b and group of four bins q. At that point the image window
  holds the block (b, ·, ·, ·) of the image features, the two bin windows hold the blocks (b, 4q … 4q+3, ·, ·)
  of the probabilities and of the targets, and each output window is written back to the block
  (b, ·, 4q … 4q+3, ·, ·) of its array. The element (0, c, d, h, w) of an output block is the product of the
  image block at (0, c, h, w) and the bin block at (0, d, h, w), which are the array elements (b, c, h, w) and
  (b, 4q + d, h, w): the block is the restriction of the outer product to the block's rectangle. The
  blocks (b, q) tile the output array, so the array ends holding the outer product everywhere.
-/
import proofs.«101830_j77403900609179_2_alg».proof.Proof.Gen.KernelIdeal.Frame
import proofs.«101830_j77403900609179_2_alg».proof.Proof.MulBody
import proofs.«101830_j77403900609179_2_alg».proof.Proof.Spec
import Idealize.ShloMosaic.Lib.Pipeline.Value

set_option maxRecDepth 16384

noncomputable section

namespace Cert.KernelIdeal.MulValue

open Cert.KernelIdeal Cert.KernelIdeal.Gen Cert.KernelIdeal.Bodies Cert.Frustum
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The index maps over the 60 grid points: the image window follows the output's batch coordinate, the two bin
    windows follow its batch and bin-group coordinates, every other block coordinate is 0, and the second output
    window moves with the first. -/
theorem idx_facts : ∀ t : Fin cfg1.N,
    win1_0.index t (0 : Fin 4) = win1_3.index t (0 : Fin 5) ∧ win1_0.index t (1 : Fin 4) = 0
    ∧ win1_0.index t (2 : Fin 4) = 0 ∧ win1_0.index t (3 : Fin 4) = 0
    ∧ win1_1.index t (0 : Fin 4) = win1_3.index t (0 : Fin 5) ∧ win1_1.index t (1 : Fin 4) = win1_3.index t (2 : Fin 5)
    ∧ win1_1.index t (2 : Fin 4) = 0 ∧ win1_1.index t (3 : Fin 4) = 0
    ∧ win1_2.index t (0 : Fin 4) = win1_3.index t (0 : Fin 5) ∧ win1_2.index t (1 : Fin 4) = win1_3.index t (2 : Fin 5)
    ∧ win1_2.index t (2 : Fin 4) = 0 ∧ win1_2.index t (3 : Fin 4) = 0
    ∧ win1_3.index t (1 : Fin 5) = 0 ∧ win1_3.index t (3 : Fin 5) = 0 ∧ win1_3.index t (4 : Fin 5) = 0
    ∧ win1_4.index t (0 : Fin 5) = win1_3.index t (0 : Fin 5) ∧ win1_4.index t (1 : Fin 5) = 0
    ∧ win1_4.index t (2 : Fin 5) = win1_3.index t (2 : Fin 5) ∧ win1_4.index t (3 : Fin 5) = 0 ∧ win1_4.index t (4 : Fin 5) = 0 :=
  (by decide +kernel : ∀ t : Fin grid1.N, _)

/-- Every (batch entry, bin group) is some grid point's output block. -/
theorem idx_onto : ∀ (q0 : Fin 2) (q2 : Fin 30), ∃ t : Fin cfg1.N, win1_3.index t = ![q0.val, 0, q2.val, 0, 0] :=
  (by decide +kernel : ∀ (q0 : Fin 2) (q2 : Fin 30), ∃ t : Fin grid1.N, win1_3.index t = ![q0.val, 0, q2.val, 0, 0])

/-! ## One element of what a point writes back -/

/-- The first output block at point t, element by element, is the outer product at the array index under it. -/
theorem point3_eq (c : Dev nD) (t : Fin cfg1.N) (j : S1x32x4x47x156.Idx) :
    k1_pay2 (iblk1 V c 0 t) (iblk1 V c 1 t) j
      = frustum (V c main_arg0 : SImg.Idx → EReal) (V c main_v13_0 : SProbs.Idx → EReal) (((cfg1.win 3).blk t).view.emb j) := by
  obtain ⟨z, cc, dd, h, w, rfl⟩ : ∃ (z : Fin 1) (cc : Fin 32) (dd : Fin 4) (h : Fin 47) (w : Fin 156), j = ix5 z cc dd h w :=
    ⟨j 0, j 1, j 2, j 3, j 4, eq_ix5 j⟩
  obtain rfl : z = 0 := Subsingleton.elim _ _
  refine (k1_pay2_apply (iblk1 V c 0 t) (iblk1 V c 1 t) cc dd h w).trans ?_
  obtain ⟨e0, e1, e2, e3, e4, e5, e6, e7, -, -, -, -, e12, e13, e14, -⟩ := idx_facts t
  show (fun a b : EReal => a * b) (V c main_arg0 (((cfg1.win 0).blk t).view.emb (ix4 (0 : Fin 1) cc h w)))
      (V c main_v13_0 (((cfg1.win 1).blk t).view.emb (ix4 (0 : Fin 1) dd h w))) = _
  unfold frustum
  refine congrArg₂ (fun a b : EReal => a * b) (congrArg (V c main_arg0 : SImg.Idx → EReal) ?_)
    (congrArg (V c main_v13_0 : SProbs.Idx → EReal) ?_)
  · funext a; apply Fin.ext
    match a with
    | ⟨0, _⟩ => show win1_0.index t (0 : Fin 4) * 1 + 1 * 0 = win1_3.index t (0 : Fin 5) * 1 + 1 * 0; omega
    | ⟨1, _⟩ => show win1_0.index t (1 : Fin 4) * 32 + 1 * cc.val = win1_3.index t (1 : Fin 5) * 32 + 1 * cc.val; omega
    | ⟨2, _⟩ => show win1_0.index t (2 : Fin 4) * 47 + 1 * h.val = win1_3.index t (3 : Fin 5) * 47 + 1 * h.val; omega
    | ⟨3, _⟩ => show win1_0.index t (3 : Fin 4) * 156 + 1 * w.val = win1_3.index t (4 : Fin 5) * 156 + 1 * w.val; omega
  · funext a; apply Fin.ext
    match a with
    | ⟨0, _⟩ => show win1_1.index t (0 : Fin 4) * 1 + 1 * 0 = win1_3.index t (0 : Fin 5) * 1 + 1 * 0; omega
    | ⟨1, _⟩ => show win1_1.index t (1 : Fin 4) * 4 + 1 * dd.val = win1_3.index t (2 : Fin 5) * 4 + 1 * dd.val; omega
    | ⟨2, _⟩ => show win1_1.index t (2 : Fin 4) * 47 + 1 * h.val = win1_3.index t (3 : Fin 5) * 47 + 1 * h.val; omega
    | ⟨3, _⟩ => show win1_1.index t (3 : Fin 4) * 156 + 1 * w.val = win1_3.index t (4 : Fin 5) * 156 + 1 * w.val; omega

/-- The second output block likewise, over the targets' array. -/
theorem point4_eq (c : Dev nD) (t : Fin cfg1.N) (j : S1x32x4x47x156.Idx) :
    k1_pay3 (iblk1 V c 0 t) (iblk1 V c 2 t) j
      = frustum (V c main_arg0 : SImg.Idx → EReal) (V c main_v13_1 : SProbs.Idx → EReal) (((cfg1.win 4).blk t).view.emb j) := by
  obtain ⟨z, cc, dd, h, w, rfl⟩ : ∃ (z : Fin 1) (cc : Fin 32) (dd : Fin 4) (h : Fin 47) (w : Fin 156), j = ix5 z cc dd h w :=
    ⟨j 0, j 1, j 2, j 3, j 4, eq_ix5 j⟩
  obtain rfl : z = 0 := Subsingleton.elim _ _
  refine (k1_pay3_apply (iblk1 V c 0 t) (iblk1 V c 2 t) cc dd h w).trans ?_
  obtain ⟨e0, e1, e2, e3, -, -, -, -, e8, e9, e10, e11, e12, e13, e14, e15, e16, e17, e18, e19⟩ := idx_facts t
  show (fun a b : EReal => a * b) (V c main_arg0 (((cfg1.win 0).blk t).view.emb (ix4 (0 : Fin 1) cc h w)))
      (V c main_v13_1 (((cfg1.win 2).blk t).view.emb (ix4 (0 : Fin 1) dd h w))) = _
  unfold frustum
  refine congrArg₂ (fun a b : EReal => a * b) (congrArg (V c main_arg0 : SImg.Idx → EReal) ?_)
    (congrArg (V c main_v13_1 : SProbs.Idx → EReal) ?_)
  · funext a; apply Fin.ext
    match a with
    | ⟨0, _⟩ => show win1_0.index t (0 : Fin 4) * 1 + 1 * 0 = win1_4.index t (0 : Fin 5) * 1 + 1 * 0; omega
    | ⟨1, _⟩ => show win1_0.index t (1 : Fin 4) * 32 + 1 * cc.val = win1_4.index t (1 : Fin 5) * 32 + 1 * cc.val; omega
    | ⟨2, _⟩ => show win1_0.index t (2 : Fin 4) * 47 + 1 * h.val = win1_4.index t (3 : Fin 5) * 47 + 1 * h.val; omega
    | ⟨3, _⟩ => show win1_0.index t (3 : Fin 4) * 156 + 1 * w.val = win1_4.index t (4 : Fin 5) * 156 + 1 * w.val; omega
  · funext a; apply Fin.ext
    match a with
    | ⟨0, _⟩ => show win1_2.index t (0 : Fin 4) * 1 + 1 * 0 = win1_4.index t (0 : Fin 5) * 1 + 1 * 0; omega
    | ⟨1, _⟩ => show win1_2.index t (1 : Fin 4) * 4 + 1 * dd.val = win1_4.index t (2 : Fin 5) * 4 + 1 * dd.val; omega
    | ⟨2, _⟩ => show win1_2.index t (2 : Fin 4) * 47 + 1 * h.val = win1_4.index t (3 : Fin 5) * 47 + 1 * h.val; omega
    | ⟨3, _⟩ => show win1_2.index t (3 : Fin 4) * 156 + 1 * w.val = win1_4.index t (4 : Fin 5) * 156 + 1 * w.val; omega

/-! ## What a point writes back is its block of the outer product -/

theorem flushed3_eq (c : Dev nD) (t : Fin cfg1.N) :
    (dat1 V c).flushed 3 t = ((cfg1.win 3).blk t).view.read (Elt Ideal)
      (frustum (V c main_arg0 : SImg.Idx → EReal) (V c main_v13_0 : SProbs.Idx → EReal)) := by
  show (cfg1.win 3).cut (grid1.coords t) ((dat1 V c).after 3 t) = _
  rw [after1_3]
  unfold out1_3
  rw [View.canon_unit_zero hz5]
  simp only [View.ld_unit_zero (S := S1x32x47x156) hz4, View.ld_unit_zero (S := S1x4x47x156) hz4]
  funext j
  exact point3_eq V c t j

theorem flushed4_eq (c : Dev nD) (t : Fin cfg1.N) :
    (dat1 V c).flushed 4 t = ((cfg1.win 4).blk t).view.read (Elt Ideal)
      (frustum (V c main_arg0 : SImg.Idx → EReal) (V c main_v13_1 : SProbs.Idx → EReal)) := by
  show (cfg1.win 4).cut (grid1.coords t) ((dat1 V c).after 4 t) = _
  rw [after1_4]
  unfold out1_4
  rw [View.canon_unit_zero hz5]
  simp only [View.ld_unit_zero (S := S1x32x47x156) hz4, View.ld_unit_zero (S := S1x4x47x156) hz4]
  funext j
  exact point4_eq V c t j

/-! ## The blocks tile the output arrays -/

/-- An index of the first output array is in point t's block iff each coordinate is in the block's range. -/
theorem mem_blk3 (t : Fin cfg1.N) (i : S2x32x120x47x156.Idx) :
    i ∈ ((cfg1.win 3).blk t).view.set ↔ ∀ a : Fin 5, win1_3.index t a * S1x32x4x47x156.size a ≤ (i a).val
      ∧ (i a).val < win1_3.index t a * S1x32x4x47x156.size a + S1x32x4x47x156.size a := by
  show i ∈ ((View.whole main_v14_0).slice (win1_3.rect t)).set ↔ _
  rw [View.set_slice_whole, Rect.mem_set_unit]
  exact Iff.rfl

theorem mem_blk4 (t : Fin cfg1.N) (i : S2x32x120x47x156.Idx) :
    i ∈ ((cfg1.win 4).blk t).view.set ↔ ∀ a : Fin 5, win1_4.index t a * S1x32x4x47x156.size a ≤ (i a).val
      ∧ (i a).val < win1_4.index t a * S1x32x4x47x156.size a + S1x32x4x47x156.size a := by
  show i ∈ ((View.whole main_v14_1).slice (win1_4.rect t)).set ↔ _
  rw [View.set_slice_whole, Rect.mem_set_unit]
  exact Iff.rfl

/-- Every index of the first output array lies in the block of the point of its batch entry and bin group. -/
theorem cover3 (i : S2x32x120x47x156.Idx) :
    ∃ t : Fin cfg1.N, (cfg1.win 3).flush t = true ∧ i ∈ ((cfg1.win 3).blk t).view.set := by
  have h0 : (i 0).val < 2 := (i 0).isLt
  have h1 : (i 1).val < 32 := (i 1).isLt
  have h2 : (i 2).val < 120 := (i 2).isLt
  have h3 : (i 3).val < 47 := (i 3).isLt
  have h4 : (i 4).val < 156 := (i 4).isLt
  obtain ⟨t, ht⟩ := idx_onto ⟨(i 0).val, h0⟩ ⟨(i 2).val / 4, by omega⟩
  have q0 : win1_3.index t (0 : Fin 5) = (i 0).val := congrFun ht 0
  have q1 : win1_3.index t (1 : Fin 5) = 0 := congrFun ht 1
  have q2 : win1_3.index t (2 : Fin 5) = (i 2).val / 4 := congrFun ht 2
  have q3 : win1_3.index t (3 : Fin 5) = 0 := congrFun ht 3
  have q4 : win1_3.index t (4 : Fin 5) = 0 := congrFun ht 4
  refine ⟨t, flush1_3 t, ?_⟩
  rw [mem_blk3]
  intro a
  match a with
  | ⟨0, _⟩ => show win1_3.index t (0 : Fin 5) * 1 ≤ (i 0).val ∧ (i 0).val < win1_3.index t (0 : Fin 5) * 1 + 1; omega
  | ⟨1, _⟩ => show win1_3.index t (1 : Fin 5) * 32 ≤ (i 1).val ∧ (i 1).val < win1_3.index t (1 : Fin 5) * 32 + 32; omega
  | ⟨2, _⟩ => show win1_3.index t (2 : Fin 5) * 4 ≤ (i 2).val ∧ (i 2).val < win1_3.index t (2 : Fin 5) * 4 + 4; omega
  | ⟨3, _⟩ => show win1_3.index t (3 : Fin 5) * 47 ≤ (i 3).val ∧ (i 3).val < win1_3.index t (3 : Fin 5) * 47 + 47; omega
  | ⟨4, _⟩ => show win1_3.index t (4 : Fin 5) * 156 ≤ (i 4).val ∧ (i 4).val < win1_3.index t (4 : Fin 5) * 156 + 156; omega

theorem cover4 (i : S2x32x120x47x156.Idx) :
    ∃ t : Fin cfg1.N, (cfg1.win 4).flush t = true ∧ i ∈ ((cfg1.win 4).blk t).view.set := by
  have h0 : (i 0).val < 2 := (i 0).isLt
  have h1 : (i 1).val < 32 := (i 1).isLt
  have h2 : (i 2).val < 120 := (i 2).isLt
  have h3 : (i 3).val < 47 := (i 3).isLt
  have h4 : (i 4).val < 156 := (i 4).isLt
  obtain ⟨t, ht⟩ := idx_onto ⟨(i 0).val, h0⟩ ⟨(i 2).val / 4, by omega⟩
  obtain ⟨-, -, -, -, -, -, -, -, -, -, -, -, -, -, -, e15, e16, e17, e18, e19⟩ := idx_facts t
  have q0 : win1_3.index t (0 : Fin 5) = (i 0).val := congrFun ht 0
  have q2 : win1_3.index t (2 : Fin 5) = (i 2).val / 4 := congrFun ht 2
  refine ⟨t, flush1_4 t, ?_⟩
  rw [mem_blk4]
  intro a
  match a with
  | ⟨0, _⟩ => show win1_4.index t (0 : Fin 5) * 1 ≤ (i 0).val ∧ (i 0).val < win1_4.index t (0 : Fin 5) * 1 + 1; omega
  | ⟨1, _⟩ => show win1_4.index t (1 : Fin 5) * 32 ≤ (i 1).val ∧ (i 1).val < win1_4.index t (1 : Fin 5) * 32 + 32; omega
  | ⟨2, _⟩ => show win1_4.index t (2 : Fin 5) * 4 ≤ (i 2).val ∧ (i 2).val < win1_4.index t (2 : Fin 5) * 4 + 4; omega
  | ⟨3, _⟩ => show win1_4.index t (3 : Fin 5) * 47 ≤ (i 3).val ∧ (i 3).val < win1_4.index t (3 : Fin 5) * 47 + 47; omega
  | ⟨4, _⟩ => show win1_4.index t (4 : Fin 5) * 156 ≤ (i 4).val ∧ (i 4).val < win1_4.index t (4 : Fin 5) * 156 + 156; omega

/-! ## The arrays after the call -/

/-- After the call the first output array is the outer product of the image features and the probabilities. -/
theorem final3 (c : Dev nD) : (dat1 V c).arrAt 3 cfg1.N
    = frustum (V c main_arg0 : SImg.Idx → EReal) (V c main_v13_0 : SProbs.Idx → EReal) :=
  (dat1 V c).arrAt_eq_of_cover 3 _ (fun t _ => flushed3_eq V c t) cover3

/-- After the call the second output array is the outer product of the image features and the targets. -/
theorem final4 (c : Dev nD) : (dat1 V c).arrAt 4 cfg1.N
    = frustum (V c main_arg0 : SImg.Idx → EReal) (V c main_v13_1 : SProbs.Idx → EReal) :=
  (dat1 V c).arrAt_eq_of_cover 4 _ (fun t _ => flushed4_eq V c t) cover4

end Cert.KernelIdeal.MulValue

end
-- ==== Proof.SoftmaxBody.lean ====
/-
  The first kernel's two stored values, read at one element of the output block.

  The body holds one batch entry's logits as a [1, 121, 47, 156] block. It takes the maximum over the
  121 bins at every pixel, subtracts it, exponentiates, sums the exponentials over the bins, divides,
  and keeps the first 120 bins: at (0, d, h, w) that is the softmax of the pixel's row at d. For the
  targets it compares the position along the bin axis with the pixel's bin index and converts the bit
  to a float: the 0/1 indicator of "bin index = d".
-/
import proofs.«101830_j77403900609179_2_alg».proof.Proof.Gen.KernelIdeal.Skeleton
import proofs.«101830_j77403900609179_2_alg».proof.Proof.Spec
import Idealize.ShloMosaic.Lib.Pipeline.Value
import Idealize.ShloMosaic.Lib.ValueIdx
import Idealize.ShloMosaic.PureOps.Ideal.Laws

noncomputable section

namespace Cert.KernelIdeal.Bodies

open Cert.KernelIdeal Cert.KernelIdeal.Gen Idealize.ShloMosaic Idealize.ShloMosaic.ValueIdx Cert.Frustum

/-- A per-pixel value [1, 47, 156], given a unit bin axis and repeated along the 121 bins, reads the pixel's value. -/
theorem pixelBcast121_apply {α : Type} (y : S1x47x156.Idx → α) (k : Fin 121) (h : Fin 47) (w : Fin 156) :
    broadcastTo S1x121x47x156 (shapeCast S1x1x47x156 y shapeCasts_S1x47x156_S1x1x47x156) broadcasts_S1x1x47x156_S1x121x47x156
        (ix4 (0 : Fin 1) k h w) = y (ix3 (0 : Fin 1) h w) :=
  (broadcastTo_apply _ broadcasts_S1x1x47x156_S1x121x47x156 (ix4 (0 : Fin 1) k h w) (ix4 (0 : Fin 1) (0 : Fin 1) h w)
    (fun a => match a with | ⟨0, _⟩ => rfl | ⟨1, _⟩ => rfl | ⟨2, _⟩ => rfl | ⟨3, _⟩ => rfl)).trans
  (shapeCast_apply y shapeCasts_S1x47x156_S1x1x47x156 (ix4 (0 : Fin 1) (0 : Fin 1) h w) (ix3 (0 : Fin 1) h w)
    (by rw [Shape.rowMajor_val_three, Shape.rowMajor_val_four]
        show (0 * 47 + h.val) * 156 + w.val = ((0 * 1 + 0) * 47 + h.val) * 156 + w.val
        omega))

/-- The same along the 120 kept bins. -/
theorem pixelBcast120_apply {α : Type} (y : S1x47x156.Idx → α) (d : Fin 120) (h : Fin 47) (w : Fin 156) :
    broadcastTo S1x120x47x156 (shapeCast S1x1x47x156 y shapeCasts_S1x47x156_S1x1x47x156) broadcasts_S1x1x47x156_S1x120x47x156
        (ix4 (0 : Fin 1) d h w) = y (ix3 (0 : Fin 1) h w) :=
  (broadcastTo_apply _ broadcasts_S1x1x47x156_S1x120x47x156 (ix4 (0 : Fin 1) d h w) (ix4 (0 : Fin 1) (0 : Fin 1) h w)
    (fun a => match a with | ⟨0, _⟩ => rfl | ⟨1, _⟩ => rfl | ⟨2, _⟩ => rfl | ⟨3, _⟩ => rfl)).trans
  (shapeCast_apply y shapeCasts_S1x47x156_S1x1x47x156 (ix4 (0 : Fin 1) (0 : Fin 1) h w) (ix3 (0 : Fin 1) h w)
    (by rw [Shape.rowMajor_val_three, Shape.rowMajor_val_four]
        show (0 * 47 + h.val) * 156 + w.val = ((0 * 1 + 0) * 47 + h.val) * 156 + w.val
        omega))

/-- The block index over the pixel (0, h, w) with the bin coordinate k put back. -/
theorem lift_pixel (h : Fin 47) (w : Fin 156) (k : Fin 121) :
    reduces_S1x121x47x156_S1x47x156.lift (ix3 (0 : Fin 1) h w) k = ix4 (0 : Fin 1) k h w := by
  funext a
  match a with
  | ⟨0, _⟩ => rfl
  | ⟨1, _⟩ => rfl
  | ⟨2, _⟩ => rfl
  | ⟨3, _⟩ => rfl

/-- The bin-axis maximum of a block at a pixel is the maximum of the pixel's row. -/
theorem blockMax_apply (x0 : FVec Ideal S1x121x47x156 .f32) (hφ : FKind.Formats .f32)
    (hacc : (0xFF800000#32 : BitVec 32) = 0xFF800000#32) (h : Fin 47) (w : Fin 156) :
    multiReduction .maximumf [1] S1x47x156 x0 0xFF800000#32 reduces_S1x121x47x156_S1x47x156 hφ hacc (ix3 (0 : Fin 1) h w)
      = rowMax (fun k : Fin 121 => x0 (ix4 (0 : Fin 1) k h w)) := by
  refine (Ideal.multiReduction_maximumf_single x0 _ reduces_S1x121x47x156_S1x47x156 hφ hacc (ix3 (0 : Fin 1) h w)).trans ?_
  unfold rowMax
  exact congrArg (fun f : Fin 121 → EReal => Finset.fold max (Ideal.ofBits .f32 0xFF800000#32) f (Finset.univ : Finset (Fin 121)))
    (funext fun k => congrArg x0 (lift_pixel h w k))

/-- The bin-axis sum of a block at a pixel is the sum over the pixel's row. -/
theorem blockSum_apply (e : FVec Ideal S1x121x47x156 .f32) (hφ : FKind.Formats .f32)
    (hacc : (0x00000000#32 : BitVec 32) = 0x00000000#32) (h : Fin 47) (w : Fin 156) :
    multiReduction .add [1] S1x47x156 e 0x00000000#32 reduces_S1x121x47x156_S1x47x156 hφ hacc (ix3 (0 : Fin 1) h w)
      = ∑ k : Fin 121, e (ix4 (0 : Fin 1) k h w) := by
  refine (Ideal.multiReduction_add_single e _ reduces_S1x121x47x156_S1x47x156 hφ hacc (ix3 (0 : Fin 1) h w)).trans ?_
  exact Finset.sum_congr rfl fun k _ => congrArg e (lift_pixel h w k)

/-- The shifted exponential of a block against a per-pixel shift, at an element. -/
theorem shiftedExp_apply (x0 : FVec Ideal S1x121x47x156 .f32) (M : FVec Ideal S1x47x156 .f32) (k : Fin 121) (h : Fin 47) (w : Fin 156) :
    exp (subf x0 (broadcastTo S1x121x47x156 (shapeCast S1x1x47x156 M shapeCasts_S1x47x156_S1x1x47x156) broadcasts_S1x1x47x156_S1x121x47x156))
        (ix4 (0 : Fin 1) k h w)
      = Ideal.exp (x0 (ix4 (0 : Fin 1) k h w) - M (ix3 (0 : Fin 1) h w)) := by
  show Ideal.exp (x0 (ix4 (0 : Fin 1) k h w) - _) = _
  rw [pixelBcast121_apply]

/-- The value stored to the probabilities' block, at one element: the softmax of the pixel's row. -/
theorem k0_pay1_apply (x0 : Vec Ideal S1x121x47x156 .f32) (d : Fin 120) (h : Fin 47) (w : Fin 156) :
    k0_pay1 x0 (ix4 (0 : Fin 1) d h w) = softmaxRow (fun k : Fin 121 => x0 (ix4 (0 : Fin 1) k h w)) d.castSucc := by
  unfold k0_pay1
  refine (extractStridedSlice_apply _ _ slices_S1x121x47x156_o0_0_0_0_S1x120x47x156 (ix4 (0 : Fin 1) d h w)
    (ix4 (0 : Fin 1) d.castSucc h w) ?_).trans ?_
  · intro a
    match a with
    | ⟨0, _⟩ => rfl
    | ⟨1, _⟩ => show d.val = 0 + d.val; omega
    | ⟨2, _⟩ => show h.val = 0 + h.val; omega
    | ⟨3, _⟩ => show w.val = 0 + w.val; omega
  · rw [divf_apply, shiftedExp_apply, pixelBcast121_apply]
    unfold softmaxRow
    refine congrArg₂ Ideal.div
      (congrArg (fun M : EReal => Ideal.exp (x0 (ix4 (0 : Fin 1) d.castSucc h w) - M)) (blockMax_apply x0 _ _ h w)) ?_
    refine (blockSum_apply _ _ _ h w).trans (Finset.sum_congr rfl fun k _ => ?_)
    refine (shiftedExp_apply x0 _ k h w).trans ?_
    exact congrArg (fun M : EReal => Ideal.exp (x0 (ix4 (0 : Fin 1) k h w) - M)) (blockMax_apply x0 _ _ h w)

/-- The value stored to the targets' block, at one element: the indicator of "bin index = d". -/
theorem k0_pay2_apply (x1 : Vec Ideal S1x47x156 .i32) (d : Fin 120) (h : Fin 47) (w : Fin 156) :
    k0_pay2 (F := Ideal) x1 (ix4 (0 : Fin 1) d h w) = hotBit (x1 (ix3 (0 : Fin 1) h w)) d := by
  unfold k0_pay2
  show FloatOps.sitofp (F := Ideal) .f32 ((IntOp.cmpi .eq (iota .tc S1x120x47x156 32 [1] iota_S1x120x47x156_d1_w32 (ix4 (0 : Fin 1) d h w))
      (broadcastTo S1x120x47x156 (shapeCast S1x1x47x156 x1 shapeCasts_S1x47x156_S1x1x47x156) broadcasts_S1x1x47x156_S1x120x47x156
        (ix4 (0 : Fin 1) d h w))).setWidth 32) = _
  rw [iota_single_apply, pixelBcast120_apply]
  exact hotBit_of_iota_eq (x1 (ix3 (0 : Fin 1) h w)) d

end Cert.KernelIdeal.Bodies

end
-- ==== Proof.SoftmaxValue.lean ====
/-
  The first call's two output arrays as whole-array functions of its two input arrays.

  The grid has one point per batch entry b. At that point the logits window holds the block (b, ·, ·, ·)
  of the logits, the bin-index window the block (b, ·, ·) of the bin indices, and each output window is
  written back to the block (b, ·, ·, ·) of its array. The element (0, d, h, w) of the first output block is
  the softmax of the row of the logits block at the pixel (h, w), taken at d — the row of the logits
  array at the pixel (b, h, w); the element of the second is the indicator that the bin index at
  (b, h, w) is d. The two blocks tile their arrays.
-/
import proofs.«101830_j77403900609179_2_alg».proof.Proof.Gen.KernelIdeal.Frame
import proofs.«101830_j77403900609179_2_alg».proof.Proof.SoftmaxBody
import proofs.«101830_j77403900609179_2_alg».proof.Proof.Spec
import Idealize.ShloMosaic.Lib.Pipeline.Value

set_option maxRecDepth 16384

noncomputable section

namespace Cert.KernelIdeal.SoftmaxValue

open Cert.KernelIdeal Cert.KernelIdeal.Gen Cert.KernelIdeal.Bodies Cert.Frustum
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The index maps over the two grid points: every window's batch coordinate is the point's, every other
    block coordinate is 0. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 3) = win0_2.index t (0 : Fin 4) ∧ win0_1.index t (1 : Fin 3) = 0 ∧ win0_1.index t (2 : Fin 3) = 0
    ∧ win0_2.index t (0 : Fin 4) ≤ 1 ∧ win0_2.index t (1 : Fin 4) = 0 ∧ win0_2.index t (2 : Fin 4) = 0 ∧ win0_2.index t (3 : Fin 4) = 0
    ∧ win0_3.index t (0 : Fin 4) = win0_2.index t (0 : Fin 4) ∧ win0_3.index t (1 : Fin 4) = 0
    ∧ win0_3.index t (2 : Fin 4) = 0 ∧ win0_3.index t (3 : Fin 4) = 0 :=
  (by decide +kernel : ∀ t : Fin grid0.N, _)

/-- Every batch entry is some grid point's output block. -/
theorem idx_onto : ∀ q0 : Fin 2, ∃ t : Fin cfg0.N, win0_2.index t = ![q0.val, 0, 0, 0] :=
  (by decide +kernel : ∀ q0 : Fin 2, ∃ t : Fin grid0.N, win0_2.index t = ![q0.val, 0, 0, 0])

/-! ## One element of what a point writes back -/

/-- The probabilities' block at point t, element by element, is the softmax array at the array index under it. -/
theorem point2_eq (c : Dev nD) (t : Fin cfg0.N) (j : S1x120x47x156.Idx) :
    k0_pay1 (iblk0 V c 0 t) j = probs (V c main_arg1 : SLogits.Idx → EReal) (((cfg0.win 2).blk t).view.emb j) := by
  obtain ⟨z, d, h, w, rfl⟩ : ∃ (z : Fin 1) (d : Fin 120) (h : Fin 47) (w : Fin 156), j = ix4 z d h w :=
    ⟨j 0, j 1, j 2, j 3, eq_ix4 j⟩
  obtain rfl : z = 0 := Subsingleton.elim _ _
  refine (k0_pay1_apply (iblk0 V c 0 t) d h w).trans ?_
  obtain ⟨e0, e1, e2, e3, -, -, -, e7, e8, e9, e10, -⟩ := idx_facts t
  have hb : win0_2.index t (0 : Fin 4) < 2 := by omega
  have hemb : ((cfg0.win 2).blk t).view.emb (ix4 (0 : Fin 1) d h w) = ix4 (⟨win0_2.index t (0 : Fin 4), hb⟩ : Fin 2) d h w := by
    funext a; apply Fin.ext
    match a with
    | ⟨0, _⟩ => show win0_2.index t (0 : Fin 4) * 1 + 1 * 0 = win0_2.index t (0 : Fin 4); omega
    | ⟨1, _⟩ => show win0_2.index t (1 : Fin 4) * 120 + 1 * d.val = d.val; omega
    | ⟨2, _⟩ => show win0_2.index t (2 : Fin 4) * 47 + 1 * h.val = h.val; omega
    | ⟨3, _⟩ => show win0_2.index t (3 : Fin 4) * 156 + 1 * w.val = w.val; omega
  rw [hemb, probs_ix]
  unfold probsAt
  refine congrArg (fun r : Fin 121 → EReal => softmaxRow r d.castSucc) (funext fun k => ?_)
  show (V c main_arg1 : SLogits.Idx → EReal) (((cfg0.win 0).blk t).view.emb (ix4 (0 : Fin 1) k h w))
      = (V c main_arg1 : SLogits.Idx → EReal) (ix4 (⟨win0_2.index t (0 : Fin 4), hb⟩ : Fin 2) k h w)
  refine congrArg (V c main_arg1 : SLogits.Idx → EReal) ?_
  funext a; apply Fin.ext
  match a with
  | ⟨0, _⟩ => show win0_0.index t (0 : Fin 4) * 1 + 1 * 0 = win0_2.index t (0 : Fin 4); omega
  | ⟨1, _⟩ => show win0_0.index t (1 : Fin 4) * 121 + 1 * k.val = k.val; omega
  | ⟨2, _⟩ => show win0_0.index t (2 : Fin 4) * 47 + 1 * h.val = h.val; omega
  | ⟨3, _⟩ => show win0_0.index t (3 : Fin 4) * 156 + 1 * w.val = w.val; omega

/-- The targets' block at point t, element by element, is the indicator array at the array index under it. -/
theorem point3_eq (c : Dev nD) (t : Fin cfg0.N) (j : S1x120x47x156.Idx) :
    k0_pay2 (F := Ideal) (iblk0 V c 1 t) j = targets (V c main_arg3 : SBins.Idx → BitVec 32) (((cfg0.win 3).blk t).view.emb j) := by
  obtain ⟨z, d, h, w, rfl⟩ : ∃ (z : Fin 1) (d : Fin 120) (h : Fin 47) (w : Fin 156), j = ix4 z d h w :=
    ⟨j 0, j 1, j 2, j 3, eq_ix4 j⟩
  obtain rfl : z = 0 := Subsingleton.elim _ _
  refine (k0_pay2_apply (iblk0 V c 1 t) d h w).trans ?_
  obtain ⟨-, -, -, -, e4, e5, e6, e7, -, -, -, e11, e12, e13, e14⟩ := idx_facts t
  have hb : win0_3.index t (0 : Fin 4) < 2 := by omega
  have hemb : ((cfg0.win 3).blk t).view.emb (ix4 (0 : Fin 1) d h w) = ix4 (⟨win0_3.index t (0 : Fin 4), hb⟩ : Fin 2) d h w := by
    funext a; apply Fin.ext
    match a with
    | ⟨0, _⟩ => show win0_3.index t (0 : Fin 4) * 1 + 1 * 0 = win0_3.index t (0 : Fin 4); omega
    | ⟨1, _⟩ => show win0_3.index t (1 : Fin 4) * 120 + 1 * d.val = d.val; omega
    | ⟨2, _⟩ => show win0_3.index t (2 : Fin 4) * 47 + 1 * h.val = h.val; omega
    | ⟨3, _⟩ => show win0_3.index t (3 : Fin 4) * 156 + 1 * w.val = w.val; omega
  rw [hemb, targets_ix]
  refine congrArg (fun b : BitVec 32 => hotBit b d) ?_
  show (V c main_arg3 : SBins.Idx → BitVec 32) (((cfg0.win 1).blk t).view.emb (ix3 (0 : Fin 1) h w))
      = (V c main_arg3 : SBins.Idx → BitVec 32) (ix3 (⟨win0_3.index t (0 : Fin 4), hb⟩ : Fin 2) h w)
  refine congrArg (V c main_arg3 : SBins.Idx → BitVec 32) ?_
  funext a; apply Fin.ext
  match a with
  | ⟨0, _⟩ => show win0_1.index t (0 : Fin 3) * 1 + 1 * 0 = win0_3.index t (0 : Fin 4); omega
  | ⟨1, _⟩ => show win0_1.index t (1 : Fin 3) * 47 + 1 * h.val = h.val; omega
  | ⟨2, _⟩ => show win0_1.index t (2 : Fin 3) * 156 + 1 * w.val = w.val; omega

/-! ## What a point writes back is its block of the whole-array function -/

theorem flushed2_eq (c : Dev nD) (t : Fin cfg0.N) :
    (dat0 V c).flushed 2 t = ((cfg0.win 2).blk t).view.read (Elt Ideal) (probs (V c main_arg1 : SLogits.Idx → EReal)) := by
  show (cfg0.win 2).cut (grid0.coords t) ((dat0 V c).after 2 t) = _
  rw [after0_2]
  unfold out0_2
  rw [View.canon_unit_zero hz4]
  simp only [View.ld_unit_zero (S := S1x121x47x156) hz4]
  funext j
  exact point2_eq V c t j

theorem flushed3_eq (c : Dev nD) (t : Fin cfg0.N) :
    (dat0 V c).flushed 3 t = ((cfg0.win 3).blk t).view.read (Elt Ideal) (targets (V c main_arg3 : SBins.Idx → BitVec 32)) := by
  show (cfg0.win 3).cut (grid0.coords t) ((dat0 V c).after 3 t) = _
  rw [after0_3]
  unfold out0_3
  rw [View.canon_unit_zero hz4]
  simp only [View.ld_unit_zero (S := S1x47x156) hz3]
  funext j
  exact point3_eq V c t j

/-! ## The blocks tile the output arrays -/

theorem mem_blk2 (t : Fin cfg0.N) (i : S2x120x47x156.Idx) :
    i ∈ ((cfg0.win 2).blk t).view.set ↔ ∀ a : Fin 4, win0_2.index t a * S1x120x47x156.size a ≤ (i a).val
      ∧ (i a).val < win0_2.index t a * S1x120x47x156.size a + S1x120x47x156.size a := by
  show i ∈ ((View.whole main_v13_0).slice (win0_2.rect t)).set ↔ _
  rw [View.set_slice_whole, Rect.mem_set_unit]
  exact Iff.rfl

theorem mem_blk3 (t : Fin cfg0.N) (i : S2x120x47x156.Idx) :
    i ∈ ((cfg0.win 3).blk t).view.set ↔ ∀ a : Fin 4, win0_3.index t a * S1x120x47x156.size a ≤ (i a).val
      ∧ (i a).val < win0_3.index t a * S1x120x47x156.size a + S1x120x47x156.size a := by
  show i ∈ ((View.whole main_v13_1).slice (win0_3.rect t)).set ↔ _
  rw [View.set_slice_whole, Rect.mem_set_unit]
  exact Iff.rfl

theorem cover2 (i : S2x120x47x156.Idx) :
    ∃ t : Fin cfg0.N, (cfg0.win 2).flush t = true ∧ i ∈ ((cfg0.win 2).blk t).view.set := by
  have h0 : (i 0).val < 2 := (i 0).isLt
  have h1 : (i 1).val < 120 := (i 1).isLt
  have h2 : (i 2).val < 47 := (i 2).isLt
  have h3 : (i 3).val < 156 := (i 3).isLt
  obtain ⟨t, ht⟩ := idx_onto ⟨(i 0).val, h0⟩
  have q0 : win0_2.index t (0 : Fin 4) = (i 0).val := congrFun ht 0
  have q1 : win0_2.index t (1 : Fin 4) = 0 := congrFun ht 1
  have q2 : win0_2.index t (2 : Fin 4) = 0 := congrFun ht 2
  have q3 : win0_2.index t (3 : Fin 4) = 0 := congrFun ht 3
  refine ⟨t, flush0_2 t, ?_⟩
  rw [mem_blk2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 120 ≤ (i 1).val ∧ (i 1).val < win0_2.index t (1 : Fin 4) * 120 + 120; omega
  | ⟨2, _⟩ => show win0_2.index t (2 : Fin 4) * 47 ≤ (i 2).val ∧ (i 2).val < win0_2.index t (2 : Fin 4) * 47 + 47; omega
  | ⟨3, _⟩ => show win0_2.index t (3 : Fin 4) * 156 ≤ (i 3).val ∧ (i 3).val < win0_2.index t (3 : Fin 4) * 156 + 156; omega

theorem cover3 (i : S2x120x47x156.Idx) :
    ∃ t : Fin cfg0.N, (cfg0.win 3).flush t = true ∧ i ∈ ((cfg0.win 3).blk t).view.set := by
  have h0 : (i 0).val < 2 := (i 0).isLt
  have h1 : (i 1).val < 120 := (i 1).isLt
  have h2 : (i 2).val < 47 := (i 2).isLt
  have h3 : (i 3).val < 156 := (i 3).isLt
  obtain ⟨t, ht⟩ := idx_onto ⟨(i 0).val, h0⟩
  obtain ⟨-, -, -, -, -, -, -, -, -, -, -, e11, e12, e13, e14⟩ := idx_facts t
  have q0 : win0_2.index t (0 : Fin 4) = (i 0).val := congrFun ht 0
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 120 ≤ (i 1).val ∧ (i 1).val < win0_3.index t (1 : Fin 4) * 120 + 120; omega
  | ⟨2, _⟩ => show win0_3.index t (2 : Fin 4) * 47 ≤ (i 2).val ∧ (i 2).val < win0_3.index t (2 : Fin 4) * 47 + 47; omega
  | ⟨3, _⟩ => show win0_3.index t (3 : Fin 4) * 156 ≤ (i 3).val ∧ (i 3).val < win0_3.index t (3 : Fin 4) * 156 + 156; omega

/-! ## The arrays after the call -/

/-- After the call the probabilities' array is the softmax of the logits, over the kept bins. -/
theorem final2 (c : Dev nD) : (dat0 V c).arrAt 2 cfg0.N = probs (V c main_arg1 : SLogits.Idx → EReal) :=
  (dat0 V c).arrAt_eq_of_cover 2 _ (fun t _ => flushed2_eq V c t) cover2

/-- After the call the targets' array is the one-hot indicator of the bin indices, over the kept bins. -/
theorem final3 (c : Dev nD) : (dat0 V c).arrAt 3 cfg0.N = targets (V c main_arg3 : SBins.Idx → BitVec 32) :=
  (dat0 V c).arrAt_eq_of_cover 3 _ (fun t _ => flushed3_eq V c t) cover3

end Cert.KernelIdeal.SoftmaxValue

end
-- ==== Proof.KernelValue.lean ====
/-
  The idealized kernel program's three results as functions of its arguments.

  The pooled depth map is written by the host operations before the first call and touched by neither
  call. The first call reads the logits and the bin indices as launched and leaves the probabilities
  and the targets; the second reads the image features as launched and those two arrays and leaves
  the two outer products. Chaining the two calls' whole-array results gives each frustum array as the
  outer product of the launched image features with the softmax of the launched logits, or with the
  one-hot targets of the launched bin indices.
-/
import proofs.«101830_j77403900609179_2_alg».proof.Proof.KernelRun
import proofs.«101830_j77403900609179_2_alg».proof.Proof.MulValue
import proofs.«101830_j77403900609179_2_alg».proof.Proof.SoftmaxValue
import Idealize.ShloMosaic.Lib.StableHlo.Run

set_option maxRecDepth 16384

noncomputable section

namespace Cert.KernelIdeal.RunValue

open Cert.KernelIdeal Cert.KernelIdeal.Gen Cert.Frustum
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The pooled depth map of a [2, 376, 1248] depth map: the mean over each 8 × 8 cell divided by the cell's
    fraction of non-zero entries plus 1e-10, as the host operations compute it. -/
def pooled (x2 : (⟨S2x376x1248, .f32⟩ : BufTy).Contents (Elt Ideal)) : (⟨S2x47x156, .f32⟩ : BufTy).Contents (Elt Ideal) :=
  Host.divf
    (Host.divf (Host.reduceAdd (shapeCast _ x2 shapeCasts_S2x376x1248_S2x47x8x156x8) (constant (F := Ideal) S_ .f32 0x00000000#32)
        reducesTo_S2x47x8x156x8_S2x47x156_d2_4 h_S_)
      (broadcastInDim S2x47x156 ![] bcast_S_S2x47x156 (constant (F := Ideal) S_ .f32 0x42800000#32)))
    (addf
      (Host.divf
        (Host.reduceAdd
          (uitofp .f32 (cmpf .une (shapeCast _ x2 shapeCasts_S2x376x1248_S2x47x8x156x8)
            (broadcastInDim S2x47x8x156x8 ![] bcast_S_S2x47x8x156x8 (constant (F := Ideal) S_ .f32 0x00000000#32))))
          (constant (F := Ideal) S_ .f32 0x00000000#32) reducesTo_S2x47x8x156x8_S2x47x156_d2_4 h_S_)
        (broadcastInDim S2x47x156 ![] bcast_S_S2x47x156 (constant (F := Ideal) S_ .f32 0x42800000#32)))
      (broadcastInDim S2x47x156 ![] bcast_S_S2x47x156 (constant (F := Ideal) S_ .f32 0x2EDBE6FF#32)))

/-! ## The arguments as each call finds them -/

/-- The second call finds the image features as launched. -/
theorem V2_main_arg0 (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

/-- The first call finds the logits as launched. -/
theorem V1_main_arg1 (c : Dev nD) : V1 m ρ c main_arg1 = m ((c : Thread nD τ).loc main_arg1) :=
  ((W3_of_ne m ρ c main_arg1 (by decide)).trans
    ((W2_arr m ρ c 0).trans (((dat0 (V1 m ρ) c).arrAt_in 0 rfl _).trans (A_eq0 (V1 m ρ) c 0)))).symm.trans (W3_main_arg1 m ρ c)

/-- The first call finds the bin indices as launched. -/
theorem V1_main_arg3 (c : Dev nD) : V1 m ρ c main_arg3 = m ((c : Thread nD τ).loc main_arg3) :=
  ((W3_of_ne m ρ c main_arg3 (by decide)).trans
    ((W2_arr m ρ c 1).trans (((dat0 (V1 m ρ) c).arrAt_in 1 rfl _).trans (A_eq0 (V1 m ρ) c 1)))).symm.trans (W3_main_arg3 m ρ c)

/-! ## The first call's results, as the second call finds them -/

theorem V2_main_v13_0 (c : Dev nD) :
    V2 m ρ c main_v13_0 = probs (m ((c : Thread nD τ).loc main_arg1) : SLogits.Idx → EReal) :=
  (W2_arr m ρ c 2).trans ((SoftmaxValue.final2 (V1 m ρ) c).trans
    (congrArg (fun x : SLogits.Idx → EReal => probs x) (V1_main_arg1 m ρ c)))

theorem V2_main_v13_1 (c : Dev nD) :
    V2 m ρ c main_v13_1 = targets (m ((c : Thread nD τ).loc main_arg3) : SBins.Idx → BitVec 32) :=
  (W2_arr m ρ c 3).trans ((SoftmaxValue.final3 (V1 m ρ) c).trans
    (congrArg (fun x : SBins.Idx → BitVec 32 => targets x) (V1_main_arg3 m ρ c)))

/-! ## The three results after the last segment -/

theorem W3_main_v14_0 (c : Dev nD) :
    W3 m ρ c (Proc.devRef .tc main_v14_0)
      = frustum (m ((c : Thread nD τ).loc main_arg0) : SImg.Idx → EReal)
          (probs (m ((c : Thread nD τ).loc main_arg1) : SLogits.Idx → EReal)) :=
  (W3_arr m ρ c 3).trans ((MulValue.final3 (V2 m ρ) c).trans
    (congrArg₂ (fun (a : SImg.Idx → EReal) (p : SProbs.Idx → EReal) => frustum a p) (V2_main_arg0 m ρ c) (V2_main_v13_0 m ρ c)))

theorem W3_main_v14_1 (c : Dev nD) :
    W3 m ρ c (Proc.devRef .tc main_v14_1)
      = frustum (m ((c : Thread nD τ).loc main_arg0) : SImg.Idx → EReal)
          (targets (m ((c : Thread nD τ).loc main_arg3) : SBins.Idx → BitVec 32)) :=
  (W3_arr m ρ c 4).trans ((MulValue.final4 (V2 m ρ) c).trans
    (congrArg₂ (fun (a : SImg.Idx → EReal) (p : SProbs.Idx → EReal) => frustum a p) (V2_main_arg0 m ρ c) (V2_main_v13_1 m ρ c)))

theorem W3_main_v12 (c : Dev nD) :
    W3 m ρ c (Proc.devRef .tc main_v12) = pooled (m ((c : Thread nD τ).loc main_arg2)) :=
  calc W3 m ρ c (Proc.devRef .tc main_v12)
    _ = W2 m ρ c (Proc.devRef .tc main_v12) := W3_of_ne m ρ c main_v12 (by decide)
    _ = W1 m ρ c (Proc.devRef .tc main_v12) := W2_of_ne m ρ c main_v12 (by decide)
    _ = pooled (m ((c : Thread nD τ).loc main_arg2)) := by
          show StableHlo.after hostOps0 (W0 m ρ c) (Proc.devRef .tc main_v12) = _
          unfold pooled
          after_results
          rfl

/-! ## The run, read -/

/-- Every weakly fair execution of the idealized kernel program terminates without a fault; the two frustum arrays end
    at the outer products of the image features with the softmax probabilities and with the one-hot targets, the
    pooled depth map at the host operations' value, and the arguments as launched. -/
theorem run : θ_run defs (onTc (τ := τ) (main (F := Ideal))) ⟨m, fun _ => 0, ρ⟩ (fun r => ∀ c : Dev nD,
      r.2.mem ((c.tc : Thread nD τ).loc main_v14_0)
        = frustum (m ((c : Thread nD τ).loc main_arg0) : SImg.Idx → EReal) (probs (m ((c : Thread nD τ).loc main_arg1) : SLogits.Idx → EReal))
      ∧ r.2.mem ((c.tc : Thread nD τ).loc main_v14_1)
        = frustum (m ((c : Thread nD τ).loc main_arg0) : SImg.Idx → EReal) (targets (m ((c : Thread nD τ).loc main_arg3) : SBins.Idx → BitVec 32))
      ∧ r.2.mem ((c.tc : Thread nD τ).loc main_v12) = pooled (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c).1.trans (W3_main_v14_0 m ρ c), (h c).2.1.trans (W3_main_v14_1 m ρ c), (h c).2.2.1.trans (W3_main_v12 m ρ c),
      (h c).2.2.2⟩)
    (run_W3 m ρ)

end Cert.KernelIdeal.RunValue

end
-- ==== Proof.RefValue.lean ====
/-
  The reference's two frustum results as the same whole-array functions.

  The reference takes the softmax over the 121 bins of the whole logits array (the maximum from −∞,
  joined once more with −∞, the shifted exponentials, their sum from 0, the quotient), keeps the
  first 120 bins and multiplies with the image features, the probabilities on the left. For the
  targets it compares the bin index with every position 0 … 120, weights the hit by 100000 at the
  overflow bin and by 1 elsewhere, moves the bin axis to the front, keeps the first 120 bins and
  multiplies with the image features. Read at an index, both are the outer products of Spec.lean:
  the extra join with −∞ changes nothing, the sum from 0 is the sum, the weight at a kept bin is 1,
  and the two factors commute.
-/
import proofs.«101830_j77403900609179_2_alg».proof.Proof.Gen.ReferenceIdeal.Read
import proofs.«101830_j77403900609179_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Frustum
open Idealize.ShloMosaic Idealize.ShloMosaic.ValueIdx

/-! ## The softmax -/

theorem hred : S2x121x47x156.Reduces [1] S2x47x156 := by decide

/-- The logits index over the pixel (b, h, w) with the bin coordinate k put back. -/
theorem lift_pixel (b : Fin 2) (h : Fin 47) (w : Fin 156) (k : Fin 121) :
    hred.lift (ix3 b h w) k = ix4 b k h w := by
  funext a
  match a with
  | ⟨0, _⟩ => rfl
  | ⟨1, _⟩ => rfl
  | ⟨2, _⟩ => rfl
  | ⟨3, _⟩ => rfl

/-- The maximum over the bins, joined with −∞, is the row's maximum. -/
theorem ref_rowMax (x1 : SLogits.Idx → EReal) (b : Fin 2) (h : Fin 47) (w : Fin 156) :
    val_main_v24 (F := Ideal) x1 (ix3 b h w) = rowMax (pixelRow x1 b h w) := by
  have hfold : val_main_v22 (F := Ideal) x1 (ix3 b h w) = rowMax (pixelRow x1 b h w) := by
    unfold val_main_v22
    refine (Host.reduce_eq_fold_single _ x1 _ reducesTo_S2x121x47x156_S2x47x156_d1 hred h_S_ (ix3 b h w)).trans ?_
    unfold rowMax
    exact congrArg (fun f : Fin 121 → EReal => Finset.fold max (Ideal.ofBits .f32 0xFF800000#32) f (Finset.univ : Finset (Fin 121)))
      (funext fun k => congrArg x1 (lift_pixel b h w k))
  rw [val_main_v24_apply, val_main_v23_apply, val_main_cst_8_apply, hfold]
  exact max_init_rowMax _

/-- The shifted exponential at an index. -/
theorem ref_shiftedExp (x1 : SLogits.Idx → EReal) (b : Fin 2) (k : Fin 121) (h : Fin 47) (w : Fin 156) :
    val_main_v28 (F := Ideal) x1 (ix4 b k h w) = Ideal.exp (x1 (ix4 b k h w) - rowMax (pixelRow x1 b h w)) := by
  rw [val_main_v28_apply, val_main_v27_apply, val_main_v26_apply, val_main_v25_apply,
    show idx_main_v25 (idx_main_v26 (ix4 b k h w)) = ix3 b h w from
      funext fun a => by match a with | ⟨0, _⟩ => rfl | ⟨1, _⟩ => rfl | ⟨2, _⟩ => rfl,
    ref_rowMax]
  rfl

/-- The sum of the shifted exponentials over the bins of a pixel. -/
theorem ref_sum (x1 : SLogits.Idx → EReal) (b : Fin 2) (h : Fin 47) (w : Fin 156) :
    val_main_v29 (F := Ideal) x1 (ix3 b h w) = ∑ k : Fin 121, Ideal.exp (x1 (ix4 b k h w) - rowMax (pixelRow x1 b h w)) := by
  rw [val_main_v29_apply, val_main_cst_9_apply]
  show Ideal.ofBits .f32 0x00000000#32 + _ = _
  rw [Ideal.ofBits_zero_f32, zero_add]
  refine Finset.sum_congr rfl fun k _ => ?_
  rw [show idx_main_v29 (ix3 b h w) k = ix4 b k h w from
      funext fun a => by match a with | ⟨0, _⟩ => rfl | ⟨1, _⟩ => rfl | ⟨2, _⟩ => rfl | ⟨3, _⟩ => rfl]
  exact ref_shiftedExp x1 b k h w

/-- The softmax over all 121 bins at an index. -/
theorem ref_softmax (x1 : SLogits.Idx → EReal) (b : Fin 2) (k : Fin 121) (h : Fin 47) (w : Fin 156) :
    val_main_v32 (F := Ideal) x1 (ix4 b k h w) = softmaxRow (pixelRow x1 b h w) k := by
  rw [val_main_v32_apply, val_main_v31_apply, val_main_v30_apply,
    show idx_main_v30 (idx_main_v31 (ix4 b k h w)) = ix3 b h w from
      funext fun a => by match a with | ⟨0, _⟩ => rfl | ⟨1, _⟩ => rfl | ⟨2, _⟩ => rfl,
    ref_sum, ref_shiftedExp]
  rfl

/-- The kept probabilities at an index. -/
theorem ref_probsAt (x1 : SLogits.Idx → EReal) (b : Fin 2) (d : Fin 120) (h : Fin 47) (w : Fin 156) :
    val_main_v33 (F := Ideal) x1 (ix4 b d h w) = probsAt x1 b d h w := by
  rw [val_main_v33_apply,
    show idx_main_v33 (ix4 b d h w) = ix4 b d.castSucc h w from
      funext fun a => by match a with | ⟨0, _⟩ => rfl | ⟨1, _⟩ => rfl | ⟨2, _⟩ => rfl | ⟨3, _⟩ => rfl,
    ref_softmax]
  rfl

/-- The first result: the outer product of the image features and the probabilities. -/
theorem ref_frustum (x0 : SImg.Idx → EReal) (x1 : SLogits.Idx → EReal) :
    val_main_v38 (F := Ideal) x0 x1 = frustum x0 (probs x1) := by
  funext i
  obtain ⟨b, c, d, h, w, rfl⟩ : ∃ (b : Fin 2) (c : Fin 32) (d : Fin 120) (h : Fin 47) (w : Fin 156), i = ix5 b c d h w :=
    ⟨i 0, i 1, i 2, i 3, i 4, eq_ix5 i⟩
  rw [val_main_v38_apply, val_main_v36_apply, val_main_v34_apply, val_main_v37_apply, val_main_v35_apply,
    show idx_main_v34 (idx_main_v36 (ix5 b c d h w)) = ix4 b d h w from
      funext fun a => by match a with | ⟨0, _⟩ => rfl | ⟨1, _⟩ => rfl | ⟨2, _⟩ => rfl | ⟨3, _⟩ => rfl,
    show idx_main_v35 (idx_main_v37 (ix5 b c d h w)) = ix4 b c h w from
      funext fun a => by match a with | ⟨0, _⟩ => rfl | ⟨1, _⟩ => rfl | ⟨2, _⟩ => rfl | ⟨3, _⟩ => rfl,
    ref_probsAt, frustum_ix, probs_ix]
  exact mul_comm _ _

/-! ## The weighted one-hot target -/

/-- The weighted one-hot array, bin axis first, at a kept bin. -/
theorem ref_hot (x3 : SBins.Idx → BitVec 32) (b : Fin 2) (d : Fin 120) (h : Fin 47) (w : Fin 156) :
    val_main_v39 (F := Ideal) x3 (ix4 b d h w) = hotBit (x3 (ix3 b h w)) d := by
  rw [val_main_v39_apply, val_main_v21_apply, val_main_v20_apply, val_main_v13_apply, val_main_call0_v4_apply,
    val_main_call0_v2_apply, val_main_call0_v0_apply, val_main_call0_v3_apply, val_main_call0_v1_apply,
    val_main_v19_apply, val_main_v18_apply, val_main_v17_apply, val_main_v16_apply, val_main_v15_apply,
    val_main_v14_apply, val_main_c_apply, val_main_call1_v0_apply, val_main_cst_5_apply, val_main_call1_v1_apply,
    val_main_cst_6_apply,
    show idx_main_call0_v0 (idx_main_call0_v2 (idx_main_v21 (idx_main_v39 (ix4 b d h w)))) = ix3 b h w from
      funext fun a => by match a with | ⟨0, _⟩ => rfl | ⟨1, _⟩ => rfl | ⟨2, _⟩ => rfl,
    show idx_main_v18 (idx_main_v19 (idx_main_v21 (idx_main_v39 (ix4 b d h w)))) = ix3 b h w from
      funext fun a => by match a with | ⟨0, _⟩ => rfl | ⟨1, _⟩ => rfl | ⟨2, _⟩ => rfl]
  exact hotBit_of_eq_mul_weight (x3 (ix3 b h w)) d

/-- The second result: the outer product of the image features and the targets. -/
theorem ref_frustum_target (x0 : SImg.Idx → EReal) (x3 : SBins.Idx → BitVec 32) :
    val_main_v44 (F := Ideal) x0 x3 = frustum x0 (targets x3) := by
  funext i
  obtain ⟨b, c, d, h, w, rfl⟩ : ∃ (b : Fin 2) (c : Fin 32) (d : Fin 120) (h : Fin 47) (w : Fin 156), i = ix5 b c d h w :=
    ⟨i 0, i 1, i 2, i 3, i 4, eq_ix5 i⟩
  rw [val_main_v44_apply, val_main_v42_apply, val_main_v40_apply, val_main_v43_apply, val_main_v41_apply,
    show idx_main_v40 (idx_main_v42 (ix5 b c d h w)) = ix4 b d h w from
      funext fun a => by match a with | ⟨0, _⟩ => rfl | ⟨1, _⟩ => rfl | ⟨2, _⟩ => rfl | ⟨3, _⟩ => rfl,
    show idx_main_v41 (idx_main_v43 (ix5 b c d h w)) = ix4 b c h w from
      funext fun a => by match a with | ⟨0, _⟩ => rfl | ⟨1, _⟩ => rfl | ⟨2, _⟩ => rfl | ⟨3, _⟩ => rfl,
    ref_hot, frustum_ix, targets_ix]
  exact mul_comm _ _

end Cert.ReferenceIdeal.RefValue

end
-- ==== Proof.lean ====
/-
  Kernel and reference compute the same three arrays over the extended reals.

  The kernel program pools the depth map on the host, then makes, per batch entry, the softmax of the
  logits over the 121 depth bins (keeping the first 120) and the one-hot targets of the bin indices
  by comparing positions with the index, then multiplies each of the two [2, 120, 47, 156] arrays
  channel by channel with the image features. The reference pools the depth map with the same host
  operations, takes jax's softmax (whose maximum is joined once more with −∞ and whose sum starts
  from 0), builds the targets as a one-hot over 121 bins weighted by 100000 at the overflow bin and 1
  elsewhere before dropping that bin, and multiplies with the factors in the other order.

  Both sides are read index by index as the functions of Spec.lean: out (b, c, d, h, w) =
  img (b, c, h, w) · p (b, d, h, w) with p the row softmax or the indicator "bin index = d". The laws used
  are max (−∞) M = M for a maximum already folded from −∞, 0 + s = s, 0 · weight = 0 and 1 · 1 = 1 at a kept
  bin (where the weight is 1 because d < 120), and commutativity of the product; none needs the
  inputs finite. The pooled depth map is one term on both sides. No operation of the kernel was
  rewritten by the idealization, so the preservation claim is empty.
-/
import proofs.«101830_j77403900609179_2_alg».proof.Defs
import proofs.«101830_j77403900609179_2_alg».proof.Proof.Gen.Kernel
import proofs.«101830_j77403900609179_2_alg».proof.Proof.Gen.Kernel.Frame
import proofs.«101830_j77403900609179_2_alg».proof.Proof.Gen.KernelIdeal
import proofs.«101830_j77403900609179_2_alg».proof.Proof.Gen.KernelIdeal.Frame
import proofs.«101830_j77403900609179_2_alg».proof.Proof.Gen.ReferenceIdeal
import proofs.«101830_j77403900609179_2_alg».proof.Proof.Gen.ReferenceIdeal.Run
import proofs.«101830_j77403900609179_2_alg».proof.Proof.Gen.ReferenceIdeal.Read
import proofs.«101830_j77403900609179_2_alg».proof.Proof.Gen.Pre_finite_inputs
import proofs.«101830_j77403900609179_2_alg».proof.Proof.KernelValue
import proofs.«101830_j77403900609179_2_alg».proof.Proof.RefValue
import Idealize.ShloMosaic.Adequacy
import Idealize.ShloMosaic.Init

noncomputable section

namespace Cert.Proof

open Idealize.ShloMosaic Idealize.ShloMosaic.TcCoe Idealize.SL.Sem Cert.Frustum

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The idealized reference runs and leaves its arguments unchanged: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- The pooled depth map is the same composition of host operations in both programs. -/
theorem pooled_eq (x2 : (⟨Cert.KernelIdeal.S2x376x1248, .f32⟩ : BufTy).Contents (Elt Ideal)) :
    Cert.KernelIdeal.RunValue.pooled x2 = Cert.ReferenceIdeal.Read.val_main_v12 (F := Ideal) x2 := rfl

/-- From memories that agree on the four arguments both idealized programs end with the same three arrays. -/
theorem algebraic : Cert.algebraic_KernelIdeal_ReferenceIdeal := by
  intro m ρ m' ρ' _ hagree
  refine ⟨_, _, _, Cert.KernelIdeal.RunValue.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v38_eq, Cert.ReferenceIdeal.RefValue.ref_frustum,
      (hagree c).1, (hagree c).2.1]
  · rw [(h c).2.1, Cert.ReferenceIdeal.Read.val_main_v44_eq, Cert.ReferenceIdeal.RefValue.ref_frustum_target,
      (hagree c).1, (hagree c).2.2.2]
  · rw [(h c).2.2.1, Cert.ReferenceIdeal.Read.val_main_v12_eq, (hagree c).2.2.1]
    exact (pooled_eq _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
